-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S100000x128 .f32) (main_arg1 : FVec F S1600000x128 .f32) (main_arg2 : IVec S1600000 32) (main_arg3 : IVec S1600000 32) (main_arg4 : FVec F S128x128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S10000x128 : Shape := ⟨2, ![10000, 128]⟩

abbrev nBuf : Space → Nat
  | .hbm => 63
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1600000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1600000x128.size a
  hwx2_0 : ∀ i : grid2.Coords, EltTy.bits .f32 = 32 ∨ (Rect.block (s := S1600000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S1600000x128.size a
  hwx3_0 : ∀ i : grid3.Coords, EltTy.bits .f32 = 32 ∨ (Rect.block (s := S1600000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S1600000x128.size a
  hwx3_5 : ∀ i : grid3.Coords, EltTy.bits .f32 = 32 ∨ (Rect.block (s := S1600000x128) S10000x128.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S1600000x128, .f32⟩
  | .hbm, ⟨89, _⟩ => ⟨S1600000x128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S1600000x128, .f32⟩
  | .hbm, ⟨96, _⟩ => ⟨S1600000x128, .f32⟩
  | .hbm, ⟨97, _⟩ => ⟨S1x128, .f32⟩
  | .hbm, ⟨98, _⟩ => ⟨S1600000x128, .f32⟩
  | .hbm, ⟨99, _⟩ => ⟨S1600000x128, .f32⟩
  | .hbm, ⟨100, _⟩ => ⟨S1x128, .f32⟩
  | .hbm, ⟨101, _⟩ => ⟨S1600000x128, .f32⟩
  | .hbm, ⟨102, _⟩ => ⟨S1600000x128, .f32⟩
  | .hbm, ⟨103, _⟩ => ⟨S_, .f32⟩
  | .hbm, ⟨104, _⟩ => ⟨S1600000x128, .f32⟩
  | .hbm, ⟨105, _⟩ => ⟨S1600000x128, .f32⟩
  | .hbm, ⟨106, _⟩ => ⟨S100000x128, .f32⟩
  | .hbm, ⟨107, _⟩ => ⟨S1600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_cst : Ref sig .tc := ⟨.hbm, 103, rfl⟩
abbrev main_call1_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  reducesTo_S1600000x128_S128_d0 : S1600000x128.ReducesTo [0] S128
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its two results read.

  The program is seven segments in a row: host operations, the linear-layer region, host operations, the two
  regions that normalise the node array and take the edge array's column sums, host operations, and the
  region that normalises the edge array. The generated frame names the buffer contents at every boundary
  between segments; its last boundary `W7` is what every unscoped buffer holds when the program returns.
  Here the run is stated with the two result buffers at those contents (and the arguments unchanged); the
  modules after this one unfold `W7` back through the regions and the host operations.
-/
import proofs.«108555_j3255585210595_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the node result and the edge
    result at the last boundary's contents and every argument as launched. -/
theorem run : θ_run defs (onTc (τ := τ) (main (F := F))) ⟨m, fun _ => 0, ρ⟩ (fun r => ∀ c : Dev nD,
      r.2.mem ((c.tc : Thread nD τ).loc main_v29) = W7 m ρ c (Proc.devRef .tc main_v29)
      ∧ r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v29 (by decide)),
       h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.RunValue

end
-- ==== Proof.Prologue.lean ====
/-
  The aggregation both programs start with, as one definition: every node's row is the sum of the feature
  rows of its in-neighbours (the source rows gathered edge by edge, a negative source index first moved up
  by the number of nodes, then added into the destination rows), divided by the node's in-degree clamped
  from below by one (the in-degree being the same accumulation of ones). Both programs spell it with the
  same host operations, so it is named once and only ever opened to see that its entries are real numbers.
-/
import proofs.«108555_j3255585210595_1_alg».proof.Proof.Gen.ReferenceIdeal

noncomputable section

namespace Cert.Prologue

open Cert.ReferenceIdeal Cert.ReferenceIdeal.Gen Idealize.ShloMosaic

variable {F : FTy → Type} [FloatOps F]

/-- The mean of the in-neighbours' feature rows, node by node (zero in-degree: the row of zeros divided by one). -/
def aggregate (feature : FVec F S100000x128 .f32) (src dst : IVec S1600000 32) : FVec F S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 feature (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))))

end Cert.Prologue

end
-- ==== Proof.Consts.lean ====
/-
  The float words the two programs spell, as the extended reals they denote: zero, the two row counts
  100000 and 1600000 (both exactly representable), and one. The stabiliser under the inverse square root is
  the same word on both sides and is never evaluated.
-/
import Idealize.ShloMosaic.PureOps.Ideal

noncomputable section

namespace Cert.Consts

open Idealize.ShloMosaic

/-- The all-zero word denotes `0`. -/
theorem ofBits_zero : Ideal.ofBits .f32 0x00000000#32 = 0 := by
  simp [Ideal.ofBits, Ideal.ieee]

/-- The word `0x47C35000` denotes the real number 100000. -/
theorem ofBits_100000 : Ideal.ofBits .f32 0x47C35000#32 = ((100000 : ℝ) : EReal) := by
  simp [Ideal.ofBits, Ideal.ieee, -EReal.coe_mul]; norm_num

/-- The word `0x49C35000` denotes the real number 1600000. -/
theorem ofBits_1600000 : Ideal.ofBits .f32 0x49C35000#32 = ((1600000 : ℝ) : EReal) := by
  simp [Ideal.ofBits, Ideal.ieee, -EReal.coe_mul]; norm_num

/-- The word `0x3F800000` denotes `1`. -/
theorem ofBits_one : Ideal.ofBits .f32 0x3F800000#32 = 1 := by
  simp [Ideal.ofBits, Ideal.ieee, -EReal.coe_mul]; norm_num

end Cert.Consts

end
-- ==== Proof.KernelFold.lean ====
/-
  What the kernel program's four regions are entered with, and where its two results are left.

  The program alternates stretches of host operations with four pipelined regions. Between two consecutive
  boundaries a buffer either is written by the stretch or region in between, or keeps what it held. Walking each
  region's operands back along the boundaries gives: the first region is entered with the shared aggregation of
  the features, the weights, and the bias as a row; the second with the linear layer's output as the first region
  left it, the features, and the column statistics obtained from the first region's column sums (the mean as the
  sum over the number of nodes, the variance as the mean of the squares minus the squared mean), with scale and
  shift as rows; the third with the edge array; the fourth with the edge array and the same statistics from the
  third region's column sums over the number of edges. The two results are what the second and the fourth region
  leave in their output arrays.
-/
import proofs.«108555_j3255585210595_1_alg».proof.Proof.Gen.KernelIdeal.Frame
import proofs.«108555_j3255585210595_1_alg».proof.Proof.Prologue
import proofs.«108555_j3255585210595_1_alg».proof.Proof.Consts
import Idealize.ShloMosaic.Lib.StableHlo.Run
import Idealize.ShloMosaic.Lib.Pipeline.Value
import Idealize.ShloMosaic.Lib.ValueIdx
import Idealize.ShloMosaic.Lib.ValueLayout

noncomputable section

namespace Cert.KernelFold

open Cert.KernelIdeal Cert.KernelIdeal.Gen Idealize.ShloMosaic Idealize.ShloMosaic.TcCoe Idealize.SL.Sem
  Idealize.ShloMosaic.ValueIdx

/-- The number of nodes, as the word the program divides by. -/
abbrev N1 : EReal := Ideal.ofBits .f32 0x47C35000#32
/-- The number of edges, as the word the program divides by. -/
abbrev N2 : EReal := Ideal.ofBits .f32 0x49C35000#32

variable (m : (ℓ : Loc nD τ sig) → Buf (Elt Ideal) ℓ) (ρ : Dev nD → PrngReg) (c : Dev nD)

/-- A stretch of host operations leaves a buffer none of them writes as it was. -/
local macro "host_keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## The results -/

/-- The edge result is what the fourth region leaves in its output array. -/
theorem x_edge : W7 m ρ c (Proc.devRef .tc main_v39) = (dat3 (V6 m ρ) c).arrAt 5 cfg3.N := W7_arr m ρ c 5

/-- The node result is what the second region leaves in its output array: nothing after that region writes it. -/
theorem x_node : W7 m ρ c (Proc.devRef .tc main_v29) = (dat1 (V3 m ρ) c).arrAt 6 cfg1.N :=
  calc W7 m ρ c (Proc.devRef .tc main_v29)
    _ = W6 m ρ c (Proc.devRef .tc main_v29) := W7_of_ne m ρ c main_v29 (by decide)
    _ = W5 m ρ c (Proc.devRef .tc main_v29) := by host_keeps hostOps3
    _ = W4 m ρ c (Proc.devRef .tc main_v29) := W5_of_ne m ρ c main_v29 (by decide)
    _ = (dat1 (V3 m ρ) c).arrAt 6 cfg1.N := W4_arr m ρ c 6

/-! ## Operands that reach a region as launched -/

/-- Before the first region the weights are as launched. -/
theorem e0_W : V1 m ρ c main_arg4 = m ((c.tc : Thread nD τ).loc main_arg4) :=
  calc W1 m ρ c (Proc.devRef .tc main_arg4)
    _ = W0 m ρ c (Proc.devRef .tc main_arg4) := by host_keeps hostOps0
    _ = m ((c.tc : Thread nD τ).loc main_arg4) := rfl

/-- Before the second region the features are as launched. -/
theorem e1_feat : V3 m ρ c main_arg0 = m ((c.tc : Thread nD τ).loc main_arg0) :=
  calc W3 m ρ c (Proc.devRef .tc main_arg0)
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0
    _ = m ((c.tc : Thread nD τ).loc main_arg0) := rfl

/-- Before the second region the linear layer's output is what the first region left. -/
theorem e1_hlin : V3 m ρ c main_v20_0 = (dat0 (V1 m ρ) c).arrAt 3 cfg0.N :=
  calc W3 m ρ c (Proc.devRef .tc main_v20_0)
    _ = W2 m ρ c (Proc.devRef .tc main_v20_0) := by host_keeps hostOps1
    _ = (dat0 (V1 m ρ) c).arrAt 3 cfg0.N := W2_arr m ρ c 3

/-- Before the third region the edge array is as launched. -/
theorem e2_e : V4 m ρ c main_arg1 = m ((c.tc : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c.tc : Thread nD τ).loc main_arg1) := rfl

/-- Before the fourth region the edge array is as launched: the third region only reads it. -/
theorem e3_e : V6 m ρ c main_arg1 = m ((c.tc : Thread nD τ).loc main_arg1) :=
  calc W6 m ρ c (Proc.devRef .tc main_arg1)
    _ = W5 m ρ c (Proc.devRef .tc main_arg1) := by host_keeps hostOps3
    _ = W4 m ρ c (Proc.devRef .tc main_arg1) :=
        (W5_arr m ρ c 0).trans (((dat2 (V4 m ρ) c).arrAt_in 0 rfl _).trans (A_eq2 (V4 m ρ) c 0))
    _ = m ((c.tc : Thread nD τ).loc main_arg1) := e2_e m ρ c

/-! ## Arguments that reach a later boundary as launched -/

theorem arg6_at2 : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keeps hostOps0
    _ = m ((c.tc : Thread nD τ).loc main_arg6) := rfl

theorem arg7_at2 : W2 m ρ c (Proc.devRef .tc main_arg7) = m ((c.tc : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keeps hostOps0
    _ = m ((c.tc : Thread nD τ).loc main_arg7) := rfl

theorem arg8_at5 : W5 m ρ c (Proc.devRef .tc main_arg8) = m ((c.tc : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c.tc : Thread nD τ).loc main_arg8) := rfl

theorem arg9_at5 : W5 m ρ c (Proc.devRef .tc main_arg9) = m ((c.tc : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c.tc : Thread nD τ).loc main_arg9) := rfl

/-! ## Operands the host stretches compute -/

/-- A vector laid out as a single row reads, in column `j`, the vector at `j`. -/
theorem row_apply (x : FVec Ideal S128 .f32) (j : Fin 128) :
    shapeCast S1x128 x shapeCasts_S128_S1x128 (ix2 0 j) = x (ix1 j) :=
  shapeCast_a_1a_apply x _ 0 j

/-- The first region is entered with the shared aggregation of the features. -/
theorem e0_agg : V1 m ρ c main_v18
    = Cert.Prologue.aggregate (F := Ideal) (m ((c.tc : Thread nD τ).loc main_arg0))
        (m ((c.tc : Thread nD τ).loc main_arg2)) (m ((c.tc : Thread nD τ).loc main_arg3)) := by
  show StableHlo.after hostOps0 (W0 m ρ c) (Proc.devRef .tc main_v18) = _
  after_results_simp
  rfl

/-- The first region is entered with the bias as a row. -/
theorem e0_bias (j : Fin 128) :
    V1 m ρ c main_v19 (ix2 0 j) = m ((c.tc : Thread nD τ).loc main_arg5) (ix1 j) := by
  have h : V1 m ρ c main_v19
      = shapeCast S1x128 (m ((c.tc : Thread nD τ).loc main_arg5) : FVec Ideal S128 .f32) shapeCasts_S128_S1x128 := by
    show StableHlo.after hostOps0 (W0 m ρ c) (Proc.devRef .tc main_v19) = _
    after_results_simp
    rfl
  rw [h]; exact row_apply _ j

/-- The column sums the first region leaves, divided by the number of nodes. -/
theorem e1_mean_fun : V3 m ρ c main_v22
    = Host.divf (F := Ideal) ((dat0 (V1 m ρ) c).arrAt 4 cfg0.N)
        (broadcastInDim S1x128 ![] bcast_S_S1x128 (constant (F := Ideal) S_ .f32 0x47C35000#32)) := by
  show StableHlo.after hostOps1 (W2 m ρ c) (Proc.devRef .tc main_v22) = _
  after_results_simp
  rw [W2_arr m ρ c 4]

/-- The second region is entered with the column means. -/
theorem e1_mean (j : Fin 128) :
    V3 m ρ c main_v22 (ix2 0 j) = Ideal.div ((dat0 (V1 m ρ) c).arrAt 4 cfg0.N (ix2 0 j)) N1 := by
  rw [e1_mean_fun]; rfl

/-- The second region is entered with the variances as the mean of the squares minus the squared mean, both
    means taken from the first region's column sums. -/
theorem e1_var (j : Fin 128) :
    V3 m ρ c main_v26 (ix2 0 j)
      = Ideal.div ((dat0 (V1 m ρ) c).arrAt 5 cfg0.N (ix2 0 j)) N1
          - Ideal.div ((dat0 (V1 m ρ) c).arrAt 4 cfg0.N (ix2 0 j)) N1
            * Ideal.div ((dat0 (V1 m ρ) c).arrAt 4 cfg0.N (ix2 0 j)) N1 := by
  have h : V3 m ρ c main_v26
      = subf (Host.divf (F := Ideal) ((dat0 (V1 m ρ) c).arrAt 5 cfg0.N)
            (broadcastInDim S1x128 ![] bcast_S_S1x128 (constant (F := Ideal) S_ .f32 0x47C35000#32)))
          (mulf (Host.divf (F := Ideal) ((dat0 (V1 m ρ) c).arrAt 4 cfg0.N)
            (broadcastInDim S1x128 ![] bcast_S_S1x128 (constant (F := Ideal) S_ .f32 0x47C35000#32)))
           (Host.divf (F := Ideal) ((dat0 (V1 m ρ) c).arrAt 4 cfg0.N)
            (broadcastInDim S1x128 ![] bcast_S_S1x128 (constant (F := Ideal) S_ .f32 0x47C35000#32)))) := by
    show StableHlo.after hostOps1 (W2 m ρ c) (Proc.devRef .tc main_v26) = _
    after_results_simp
    rw [W2_arr m ρ c 5, W2_arr m ρ c 4]
  rw [h]; rfl

/-- The same with the column mean named: the variance entry is the mean of the squares minus the square of
    whatever the mean entry is. -/
theorem e1_var_of_mean (j : Fin 128) (μ : EReal) (hμ : V3 m ρ c main_v22 (ix2 0 j) = μ) :
    V3 m ρ c main_v26 (ix2 0 j) = Ideal.div ((dat0 (V1 m ρ) c).arrAt 5 cfg0.N (ix2 0 j)) N1 - μ * μ := by
  rw [e1_var, ← hμ, e1_mean]

/-- The second region is entered with the scale as a row. -/
theorem e1_g (j : Fin 128) :
    V3 m ρ c main_v27 (ix2 0 j) = m ((c.tc : Thread nD τ).loc main_arg6) (ix1 j) := by
  have h : V3 m ρ c main_v27
      = shapeCast S1x128 (m ((c.tc : Thread nD τ).loc main_arg6) : FVec Ideal S128 .f32) shapeCasts_S128_S1x128 := by
    show StableHlo.after hostOps1 (W2 m ρ c) (Proc.devRef .tc main_v27) = _
    after_results_simp
    rw [arg6_at2 m ρ c]
    rfl
  rw [h]; exact row_apply _ j

/-- The second region is entered with the shift as a row. -/
theorem e1_b (j : Fin 128) :
    V3 m ρ c main_v28 (ix2 0 j) = m ((c.tc : Thread nD τ).loc main_arg7) (ix1 j) := by
  have h : V3 m ρ c main_v28
      = shapeCast S1x128 (m ((c.tc : Thread nD τ).loc main_arg7) : FVec Ideal S128 .f32) shapeCasts_S128_S1x128 := by
    show StableHlo.after hostOps1 (W2 m ρ c) (Proc.devRef .tc main_v28) = _
    after_results_simp
    rw [arg7_at2 m ρ c]
    rfl
  rw [h]; exact row_apply _ j

/-- The column sums the third region leaves, divided by the number of edges. -/
theorem e3_mean_fun : V6 m ρ c main_v32
    = Host.divf (F := Ideal) ((dat2 (V4 m ρ) c).arrAt 1 cfg2.N)
        (broadcastInDim S1x128 ![] bcast_S_S1x128 (constant (F := Ideal) S_ .f32 0x49C35000#32)) := by
  show StableHlo.after hostOps3 (W5 m ρ c) (Proc.devRef .tc main_v32) = _
  after_results_simp
  rw [W5_arr m ρ c 1]

/-- The fourth region is entered with the edge column means. -/
theorem e3_mean (j : Fin 128) :
    V6 m ρ c main_v32 (ix2 0 j) = Ideal.div ((dat2 (V4 m ρ) c).arrAt 1 cfg2.N (ix2 0 j)) N2 := by
  rw [e3_mean_fun]; rfl

/-- The fourth region is entered with the edge variances as the mean of the squares minus the squared mean, both
    means taken from the third region's column sums. -/
theorem e3_var (j : Fin 128) :
    V6 m ρ c main_v36 (ix2 0 j)
      = Ideal.div ((dat2 (V4 m ρ) c).arrAt 2 cfg2.N (ix2 0 j)) N2
          - Ideal.div ((dat2 (V4 m ρ) c).arrAt 1 cfg2.N (ix2 0 j)) N2
            * Ideal.div ((dat2 (V4 m ρ) c).arrAt 1 cfg2.N (ix2 0 j)) N2 := by
  have h : V6 m ρ c main_v36
      = subf (Host.divf (F := Ideal) ((dat2 (V4 m ρ) c).arrAt 2 cfg2.N)
            (broadcastInDim S1x128 ![] bcast_S_S1x128 (constant (F := Ideal) S_ .f32 0x49C35000#32)))
          (mulf (Host.divf (F := Ideal) ((dat2 (V4 m ρ) c).arrAt 1 cfg2.N)
            (broadcastInDim S1x128 ![] bcast_S_S1x128 (constant (F := Ideal) S_ .f32 0x49C35000#32)))
           (Host.divf (F := Ideal) ((dat2 (V4 m ρ) c).arrAt 1 cfg2.N)
            (broadcastInDim S1x128 ![] bcast_S_S1x128 (constant (F := Ideal) S_ .f32 0x49C35000#32)))) := by
    show StableHlo.after hostOps3 (W5 m ρ c) (Proc.devRef .tc main_v36) = _
    after_results_simp
    rw [W5_arr m ρ c 2, W5_arr m ρ c 1]
  rw [h]; rfl

/-- The same with the edge column mean named. -/
theorem e3_var_of_mean (j : Fin 128) (μ : EReal) (hμ : V6 m ρ c main_v32 (ix2 0 j) = μ) :
    V6 m ρ c main_v36 (ix2 0 j) = Ideal.div ((dat2 (V4 m ρ) c).arrAt 2 cfg2.N (ix2 0 j)) N2 - μ * μ := by
  rw [e3_var, ← hμ, e3_mean]

/-- The fourth region is entered with the edge scale as a row. -/
theorem e3_g (j : Fin 128) :
    V6 m ρ c main_v37 (ix2 0 j) = m ((c.tc : Thread nD τ).loc main_arg8) (ix1 j) := by
  have h : V6 m ρ c main_v37
      = shapeCast S1x128 (m ((c.tc : Thread nD τ).loc main_arg8) : FVec Ideal S128 .f32) shapeCasts_S128_S1x128 := by
    show StableHlo.after hostOps3 (W5 m ρ c) (Proc.devRef .tc main_v37) = _
    after_results_simp
    rw [arg8_at5 m ρ c]
    rfl
  rw [h]; exact row_apply _ j

/-- The fourth region is entered with the edge shift as a row. -/
theorem e3_b (j : Fin 128) :
    V6 m ρ c main_v38 (ix2 0 j) = m ((c.tc : Thread nD τ).loc main_arg9) (ix1 j) := by
  have h : V6 m ρ c main_v38
      = shapeCast S1x128 (m ((c.tc : Thread nD τ).loc main_arg9) : FVec Ideal S128 .f32) shapeCasts_S128_S1x128 := by
    show StableHlo.after hostOps3 (W5 m ρ c) (Proc.devRef .tc main_v38) = _
    after_results_simp
    rw [arg9_at5 m ρ c]
    rfl
  rw [h]; exact row_apply _ j

end Cert.KernelFold

end
-- ==== Proof.Spec.lean ====
/-
  The mathematics both programs compute, over the extended reals.

  A graph layer: every node averages the feature rows of its in-neighbours, a linear layer `x · Wᵀ + b` is
  applied, and the result is batch-normalised column by column, scaled, shifted, rectified and added to the
  node's own features. The edge features go through the same normalise / rectify / residual step on their
  own.

  Batch normalisation of an `R × C` array `x` uses, for each column `j`, the mean
  `μ j = (∑ i, x i j) / n` and a variance. The variance is written in two ways: as the mean of the squared
  deviations, `(∑ i, (x i j - μ j)²) / n`, and through the first two moments, `(∑ i, (x i j)²) / n - (μ j)²`.
  The two agree whenever the column is real-valued and `n` is the number of rows (module `SpecLaw`); on the
  extended reals they differ as soon as an entry is infinite, which is why the law is stated apart.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals with `R` rows and `C` columns. -/
abbrev Mat (R C : ℕ) : Type := (⟨2, ![R, C]⟩ : Shape).Idx → EReal
/-- A vector of extended reals of length `C`. -/
abbrev Vec1 (C : ℕ) : Type := (⟨1, ![C]⟩ : Shape).Idx → EReal

/-- The sum of column `j`. -/
def colSum {R C : ℕ} (x : Mat R C) (j : Fin C) : EReal := ∑ i : Fin R, x (ix2 i j)

/-- The sum of the squares of column `j`. -/
def colSumSq {R C : ℕ} (x : Mat R C) (j : Fin C) : EReal := ∑ i : Fin R, x (ix2 i j) * x (ix2 i j)

/-- The mean of column `j`, the column's sum divided by `n`. -/
def mean {R C : ℕ} (n : EReal) (x : Mat R C) (j : Fin C) : EReal := Ideal.div (colSum x j) n

/-- The variance of column `j` as the mean of the squared deviations from the column's mean. -/
def varCentered {R C : ℕ} (n : EReal) (x : Mat R C) (j : Fin C) : EReal :=
  Ideal.div (∑ i : Fin R, (x (ix2 i j) - mean n x j) * (x (ix2 i j) - mean n x j)) n

/-- The variance of column `j` through the moments: the mean of the squares minus the square of the mean. -/
def varMoments {R C : ℕ} (n : EReal) (x : Mat R C) (j : Fin C) : EReal :=
  Ideal.div (colSumSq x j) n - mean n x j * mean n x j

/-- Normalise `x` column by column with the statistics `mu`, `var` (and the stabiliser `eps` under the
    inverse square root), scale by `g`, shift by `b`, rectify, and add `res`. -/
def normRelu {R C : ℕ} (eps : EReal) (x res : Mat R C) (mu var g b : Fin C → EReal) : Mat R C :=
  fun k => res k + max ((x k - mu (k 1)) * Ideal.rsqrt (var (k 1) + eps) * g (k 1) + b (k 1)) 0

theorem normRelu_apply {R C : ℕ} (eps : EReal) (x res : Mat R C) (mu var g b : Fin C → EReal) (i : Fin R) (j : Fin C) :
    normRelu eps x res mu var g b (ix2 i j)
      = res (ix2 i j) + max ((x (ix2 i j) - mu j) * Ideal.rsqrt (var j + eps) * g j + b j) 0 := rfl

/-- The linear layer `x · Wᵀ + b`: entry `(i, n)` is `∑ q, x i q * W n q` plus `b n`. -/
def linear {M K N : ℕ} (x : Mat M K) (W : Mat N K) (b : Vec1 N) : Mat M N :=
  fun k => (∑ q : Fin K, x (ix2 (k 0) q) * W (ix2 (k 1) q)) + b (ix1 (k 1))

theorem linear_apply {M K N : ℕ} (x : Mat M K) (W : Mat N K) (b : Vec1 N) (i : Fin M) (n : Fin N) :
    linear x W b (ix2 i n) = (∑ q : Fin K, x (ix2 i q) * W (ix2 n q)) + b (ix1 n) := rfl

end Cert.Spec

end
-- ==== Proof.LibBlockSum.lean ====
/-
  A finite sum accumulated block by block. The terms term 0, …, term (N - 1) are added up B at a time: after k
  blocks the accumulator holds the sum of the terms of index below k * B. This file states the three facts such an
  accumulation needs: the accumulator starts at zero, one more block adds exactly the B terms of that block, and
  once the bound reaches N the accumulator is the whole sum.
-/
import Mathlib.Algebra.BigOperators.Fin

namespace BlockSum

open scoped BigOperators

variable {M : Type*} [AddCommMonoid M] {N : ℕ}

/-- The kk-th index of block k lies below N as soon as the first k + 1 blocks of size B fit in N:
    k * B + kk < k * B + B = (k + 1) * B ≤ N. -/
theorem block_lt {B : ℕ} {k : ℕ} (hk : (k + 1) * B ≤ N) (kk : Fin B) : k * B + kk.val < N :=
  calc k * B + kk.val < k * B + B := Nat.add_lt_add_left kk.isLt _
    _ = (k + 1) * B := (Nat.succ_mul k B).symm
    _ ≤ N := hk

/-- The sum of the terms of index below n, for n ≤ N, is the sum over Fin n of the same terms: the indices of
    Fin N below n are exactly the images of Fin n under the inclusion Fin n → Fin N. -/
theorem partial_eq_sum_fin (term : Fin N → M) (n : ℕ) (hn : n ≤ N) :
    (∑ j ∈ Finset.univ.filter (fun j : Fin N => j.val < n), term j)
      = ∑ i : Fin n, term ⟨i.val, lt_of_lt_of_le i.isLt hn⟩ := by
  symm
  refine Finset.sum_bij (fun (i : Fin n) _ => (⟨i.val, lt_of_lt_of_le i.isLt hn⟩ : Fin N)) ?_ ?_ ?_ ?_
  · intro i _
    exact Finset.mem_filter.mpr ⟨Finset.mem_univ _, i.isLt⟩
  · intro a _ b _ h
    have hv : (⟨a.val, lt_of_lt_of_le a.isLt hn⟩ : Fin N).val = (⟨b.val, lt_of_lt_of_le b.isLt hn⟩ : Fin N).val :=
      congrArg Fin.val h
    exact Fin.ext hv
  · intro j hj
    exact ⟨⟨j.val, (Finset.mem_filter.mp hj).2⟩, Finset.mem_univ _, Fin.ext rfl⟩
  · intro i _
    rfl

/-- Before any block has been added the accumulator is zero: no index is below 0. -/
theorem partial_zero (term : Fin N → M) :
    (∑ j ∈ Finset.univ.filter (fun j : Fin N => j.val < 0), term j) = 0 := by
  rw [Finset.filter_false_of_mem (fun j _ => Nat.not_lt_zero j.val)]
  exact Finset.sum_empty

/-- One more block: the sum of the terms of index below (k + 1) * B is the sum of the terms of index below k * B
    plus the B terms of block k, those of index k * B + kk for kk < B. -/
theorem partial_step (term : Fin N → M) (B k : ℕ) (hk : (k + 1) * B ≤ N) :
    (∑ j ∈ Finset.univ.filter (fun j : Fin N => j.val < (k + 1) * B), term j)
      = (∑ j ∈ Finset.univ.filter (fun j : Fin N => j.val < k * B), term j)
        + ∑ kk : Fin B, term ⟨k * B + kk.val, block_lt hk kk⟩ := by
  have hk' : k * B ≤ N := le_trans (Nat.mul_le_mul_right B (Nat.le_succ k)) hk
  have e : k * B + B = (k + 1) * B := (Nat.succ_mul k B).symm
  rw [partial_eq_sum_fin term _ hk, partial_eq_sum_fin term _ hk']
  rw [← Fin.sum_congr' (fun i : Fin ((k + 1) * B) => term ⟨i.val, lt_of_lt_of_le i.isLt hk⟩) e,
    Fin.sum_univ_add]
  rfl

/-- Once the bound reaches N every index is below it, and the accumulator is the whole sum. -/
theorem partial_full (term : Fin N → M) (n : ℕ) (hn : N ≤ n) :
    (∑ j ∈ Finset.univ.filter (fun j : Fin N => j.val < n), term j) = ∑ j, term j := by
  rw [Finset.filter_true_of_mem (fun j _ => lt_of_lt_of_le j.isLt hn)]

end BlockSum
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.NodeLinearPay.lean ====
/-
  The values the first region's body stores, read at an index, over the extended reals.

  The body sees a block `x` of 5000 rows of the aggregated features (5000 × 128), the weight array `W`
  (128 × 128), the bias row `b` (1 × 128) and two carried rows (1 × 128). It stores

    * the block of the linear layer, `h (p, n) = (∑ q, x (p, q) · W (n, q)) + b (0, n)`: the product contracts
      the second axis of both operands into an accumulator that is zero everywhere, the narrowing of the
      operands to a shorter format is the identity on extended reals, and the bias row is repeated along
      the rows;
    * into the first carried row, the row plus the column sums of `h`: entry `n` gains `∑ p, h (p, n)`;
    * into the second carried row, the row plus the column sums of the squares: entry `n` gains
      `∑ p, h (p, n) · h (p, n)`;
    * and, at the first block only, the zero row into both carried rows.

  The column sums are taken as a length-128 vector and then viewed as a 1 × 128 row; entry `(0, n)` of the
  row is entry `n` of the vector, both sitting at position `n` in row-major order.
-/
import proofs.«108555_j3255585210595_1_alg».proof.Proof.Gen.KernelIdeal.Skeleton
import proofs.«108555_j3255585210595_1_alg».proof.Proof.Consts
import proofs.«108555_j3255585210595_1_alg».proof.Proof.LibRank2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.NodeLinearPay

open Cert.KernelIdeal Cert.KernelIdeal.Gen Idealize.ShloMosaic Idealize.ShloMosaic.ValueIdx

/-- A 1 × 128 row repeated along 5000 rows reads, at (p, q), the row's entry q. -/
theorem row_bcast (x : Vec Ideal S1x128 .f32) (h : S1x128.Broadcasts S5000x128) (p : Fin 5000) (q : Fin 128) :
    broadcastTo S5000x128 x h (ix2 p q) = x (ix2 0 q) :=
  broadcastTo_apply x h _ _ (fun a => by match a with | ⟨0, _⟩ => rfl | ⟨1, _⟩ => rfl)

/-- A length-128 vector viewed as a 1 × 128 row reads, at (0, n), the vector's entry n: both sit at
    row-major position n. -/
theorem cast_row {α : Type} (v : S128.Idx → α) (h : S128.ShapeCasts S1x128) (n : Fin 128) :
    shapeCast S1x128 v h (ix2 0 n) = v (ix1 n) :=
  shapeCast_apply v h _ _ (by
    rw [Shape.rowMajor_val_one, Shape.rowMajor_val_two]
    show n.val = 0 * 128 + n.val
    omega)

/-- The sum over the rows of a 5000 × 128 array, as the reduction spells it (accumulator the zero word),
    at column n. -/
theorem col_sum (src : FVec Ideal S5000x128 .f32) (h : S5000x128.Reduces [0] S128)
    (hφ : FKind.Formats .f32) (hacc : (0x00000000#32 : BitVec 32) = FKind.add.neutral .f32 hφ) (n : Fin 128) :
    multiReduction .add [0] S128 src 0x00000000#32 h hφ hacc (ix1 n) = ∑ p : Fin 5000, src (ix2 p n) :=
  Cert.LibRank2.sum_first (a := 5000) (b := 128) (φ := .f32) src 0x00000000#32 h hφ hacc n

/-- The zero row stored into the first carried row at the first block. -/
theorem pay1_apply (n : Fin 128) : k0_pay1 (F := Ideal) (ix2 0 n) = 0 := by
  show Ideal.ofBits .f32 0x00000000#32 = 0
  exact Cert.Consts.ofBits_zero

/-- The zero row stored into the second carried row at the first block. -/
theorem pay2_apply (n : Fin 128) : k0_pay2 (F := Ideal) (ix2 0 n) = 0 := by
  show Ideal.ofBits .f32 0x00000000#32 = 0
  exact Cert.Consts.ofBits_zero

/-- The block of the linear layer at (p, n): the row p of the block against the row n of the weights,
    plus the bias at n. -/
theorem pay3_apply (x0 : Vec Ideal S5000x128 .f32) (x1 : Vec Ideal S128x128 .f32) (x2 : Vec Ideal S1x128 .f32)
    (p : Fin 5000) (n : Fin 128) :
    k0_pay3 (F := Ideal) x0 x1 x2 (ix2 p n)
      = (∑ q : Fin 128, x0 (ix2 p q) * x1 (ix2 n q)) + x2 (ix2 0 n) := by
  unfold k0_pay3
  simp only [shapeCast_self]
  show FloatOps.matmul (DotDims.transposedRhs 5000 128 128) none
        (truncf .bf16 x0 bitsLt_bf16_f32 : FVec Ideal S5000x128 .bf16)
        (truncf .bf16 x1 bitsLt_bf16_f32 : FVec Ideal S128x128 .bf16)
        (constant S5000x128 .f32 0x00000000#32) (ix2 p n)
      + broadcastTo S5000x128 x2 _ (ix2 p n) = _
  rw [row_bcast]
  refine congrArg (· + x2 (ix2 0 n)) ?_
  exact Cert.LibRank2.matmul_rhsT_zero_apply (M := 5000) (K := 128) (N := 128) none
    (truncf .bf16 x0 bitsLt_bf16_f32 : FVec Ideal S5000x128 .bf16)
    (truncf .bf16 x1 bitsLt_bf16_f32 : FVec Ideal S128x128 .bf16) p n

/-- The first carried row after the body, at n: the row's entry plus the sum of column n of the block of
    the linear layer. -/
theorem pay4_apply (x0 : Vec Ideal S5000x128 .f32) (x1 : Vec Ideal S128x128 .f32) (x2 acc : Vec Ideal S1x128 .f32)
    (n : Fin 128) :
    k0_pay4 (F := Ideal) x0 x1 x2 acc (ix2 0 n)
      = acc (ix2 0 n) + ∑ p : Fin 5000, k0_pay3 (F := Ideal) x0 x1 x2 (ix2 p n) := by
  unfold k0_pay4
  simp only [shapeCast_self]
  show acc (ix2 0 n)
      + shapeCast S1x128 (multiReduction .add [0] S128 (k0_pay3 (F := Ideal) x0 x1 x2) 0x00000000#32
          reduces_S5000x128_S128 (.inl rfl) rfl) shapeCasts_S128_S1x128 (ix2 0 n) = _
  refine congrArg (acc (ix2 0 n) + ·) ?_
  refine (cast_row _ _ n).trans ?_
  exact col_sum (k0_pay3 (F := Ideal) x0 x1 x2) reduces_S5000x128_S128 (.inl rfl) rfl n

/-- The second carried row after the body, at n: the row's entry plus the sum of the squares of column n
    of the block of the linear layer. -/
theorem pay5_apply (x0 : Vec Ideal S5000x128 .f32) (x1 : Vec Ideal S128x128 .f32) (x2 acc : Vec Ideal S1x128 .f32)
    (n : Fin 128) :
    k0_pay5 (F := Ideal) x0 x1 x2 acc (ix2 0 n)
      = acc (ix2 0 n) + ∑ p : Fin 5000,
          k0_pay3 (F := Ideal) x0 x1 x2 (ix2 p n) * k0_pay3 (F := Ideal) x0 x1 x2 (ix2 p n) := by
  unfold k0_pay5
  simp only [shapeCast_self]
  show acc (ix2 0 n)
      + shapeCast S1x128 (multiReduction .add [0] S128
          (mulf (k0_pay3 (F := Ideal) x0 x1 x2) (k0_pay3 (F := Ideal) x0 x1 x2)) 0x00000000#32
          reduces_S5000x128_S128 (.inl rfl) rfl) shapeCasts_S128_S1x128 (ix2 0 n) = _
  refine congrArg (acc (ix2 0 n) + ·) ?_
  refine (cast_row _ _ n).trans ?_
  exact col_sum (mulf (k0_pay3 (F := Ideal) x0 x1 x2) (k0_pay3 (F := Ideal) x0 x1 x2))
    reduces_S5000x128_S128 (.inl rfl) rfl n

end Cert.NodeLinearPay

end
-- ==== Proof.NodeLinearPoints.lean ====
/-
  Region 0, point by point: the linear layer and its column statistics.

  The region walks the 100000 × 128 array of averaged neighbour features in 20 blocks of 5000 rows. At every point
  the body reads the block `x`, the 128 × 128 weights `W` and the 1 × 128 bias `b` (both read whole at every
  point), stores the block `x · Wᵀ + b` of the linear layer's output, and adds that block's column sums and
  column sums of squares onto two 1 × 128 accumulators that stay in place from one point to the next; the first
  point sets both accumulators to zero before adding.

  This file reads what each of the two cases of the body (first point; any later point) leaves in the three output
  buffers as a term of the loaded blocks and of the accumulators' earlier contents, identifies the stored block with
  block `t` of the linear layer's output on the arrays as entered, and proves by induction on the point that after
  point `n` the accumulators hold the column sums, and the column sums of squares, over the rows below
  `(n + 1) · 5000`. A sum over the rows below `(n + 1) · 5000` is the sum over the rows below `n · 5000` plus the
  5000 terms of block `n`: that is the whole induction step, and it needs no law of the extended reals beyond
  reading a finite sum term by term.
-/
import proofs.«108555_j3255585210595_1_alg».proof.Proof.Gen.KernelIdeal.Frame
import proofs.«108555_j3255585210595_1_alg».proof.Proof.Spec
import proofs.«108555_j3255585210595_1_alg».proof.Proof.LibBlockSum
import proofs.«108555_j3255585210595_1_alg».proof.Proof.NodeLinearPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.NodeLinear

open Cert.KernelIdeal Cert.KernelIdeal.Gen Cert.Spec Idealize.ShloMosaic.ValueIdx

theorem hz : (![0, 0] : Fin 2 → Nat) = fun _ => 0 := funext fun a => by fin_cases a <;> rfl

/-! ## What each case of the body leaves in the three output buffers

Every load reads a whole buffer and every store writes a whole buffer, so each buffer ends holding the value of the
last store into it. At the first point the accumulators are first overwritten with zeros and then read back: the
sums are added onto that row of zeros. At a later point they are added onto what the buffers held. -/

section Pieces
variable {F : FTy → Type} [FloatOps F]

/-- First point, the block buffer: the linear layer's block. -/
theorem outA3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread,
    View.ld_unit_zero (S := S5000x128) hz, View.ld_unit_zero (S := S128x128) hz, View.ld_unit_zero (S := S1x128) hz]

/-- First point, the sums' buffer: the block's column sums added onto the row of zeros just stored. -/
theorem outA4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- First point, the buffer of sums of squares: the block's column sums of squares added onto the row of zeros. -/
theorem outA5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- A later point, the block buffer: the linear layer's block, whatever the accumulators held. -/
theorem outB3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- A later point, the sums' buffer: the block's column sums added onto what the buffer held. -/
theorem outB4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- A later point, the buffer of sums of squares: the block's column sums of squares added onto what it held. -/
theorem outB5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

end Pieces

/-! ## The linear layer's output, its blocks and its partial column sums -/

variable (V : (c : Dev nD) → (b : Ref sig .tc) → Buf (Elt Ideal) ((c : Thread nD τ).loc b))

/-- The linear layer applied to the averaged neighbour features, on the arrays as the region is entered. -/
abbrev hlin (c : Dev nD) : Mat 100000 128 :=
  linear (V c main_v18) (V c main_arg4) (fun k => V c main_v19 (ix2 0 (k 0)))

/-- Row p of block n is row n · 5000 + p of the array. -/
def blockRow (n : ℕ) (hn : (n + 1) * 5000 ≤ 100000) (p : Fin 5000) : Fin 100000 :=
  ⟨n * 5000 + p.val, BlockSum.block_lt hn p⟩

/-- Block n of a 100000 × 128 array: its rows n · 5000, …, n · 5000 + 4999. -/
def hblock (X : Mat 100000 128) (n : ℕ) (hn : (n + 1) * 5000 ≤ 100000) : Vec Ideal S5000x128 .f32 :=
  fun y => X (ix2 (blockRow n hn (y 0)) (y 1))

/-- The column sums over the rows below m, as a 1 × 128 row. -/
def partSum (X : Mat 100000 128) (m : ℕ) : Vec Ideal S1x128 .f32 :=
  fun y => ∑ r ∈ Finset.univ.filter (fun r : Fin 100000 => r.val < m), X (ix2 r (y 1))

/-- The column sums of squares over the rows below m, as a 1 × 128 row. -/
def partSq (X : Mat 100000 128) (m : ℕ) : Vec Ideal S1x128 .f32 :=
  fun y => ∑ r ∈ Finset.univ.filter (fun r : Fin 100000 => r.val < m), X (ix2 r (y 1)) * X (ix2 r (y 1))

/-- An accumulator that holds the column sums over the first n blocks and then adds block n's column sums holds the
    column sums over the first n + 1 blocks. -/
theorem partSum_step (X : Mat 100000 128) (n : ℕ) (hn : (n + 1) * 5000 ≤ 100000) (blk : Vec Ideal S5000x128 .f32)
    (hblk : blk = hblock X n hn) (acc : Vec Ideal S1x128 .f32) (hacc : acc = partSum X (n * 5000))
    (new : Vec Ideal S1x128 .f32) (hnew : ∀ q : Fin 128, new (ix2 0 q) = acc (ix2 0 q) + ∑ p : Fin 5000, blk (ix2 p q)) :
    new = partSum X ((n + 1) * 5000) := by
  subst hblk hacc
  funext y
  obtain ⟨u, q, rfl⟩ : ∃ (u : Fin 1) (q : Fin 128), y = ix2 u q := ⟨y 0, y 1, eq_ix2 y⟩
  obtain rfl : u = 0 := Subsingleton.elim _ _
  rw [hnew q]
  exact (BlockSum.partial_step (fun r : Fin 100000 => X (ix2 r q)) 5000 n hn).symm

/-- The same for the sums of squares. -/
theorem partSq_step (X : Mat 100000 128) (n : ℕ) (hn : (n + 1) * 5000 ≤ 100000) (blk : Vec Ideal S5000x128 .f32)
    (hblk : blk = hblock X n hn) (acc : Vec Ideal S1x128 .f32) (hacc : acc = partSq X (n * 5000))
    (new : Vec Ideal S1x128 .f32) (hnew : ∀ q : Fin 128, new (ix2 0 q) = acc (ix2 0 q) + ∑ p : Fin 5000, blk (ix2 p q) * blk (ix2 p q)) :
    new = partSq X ((n + 1) * 5000) := by
  subst hblk hacc
  funext y
  obtain ⟨u, q, rfl⟩ : ∃ (u : Fin 1) (q : Fin 128), y = ix2 u q := ⟨y 0, y 1, eq_ix2 y⟩
  obtain rfl : u = 0 := Subsingleton.elim _ _
  rw [hnew q]
  exact (BlockSum.partial_step (fun r : Fin 100000 => X (ix2 r q) * X (ix2 r q)) 5000 n hn).symm

/-- The row of zeros the first point stores is the column sums over no rows at all. -/
theorem zero_eq_partSum (X : Mat 100000 128) : k0_pay1 (F := Ideal) = partSum X (0 * 5000) := by
  funext y
  obtain ⟨u, q, rfl⟩ : ∃ (u : Fin 1) (q : Fin 128), y = ix2 u q := ⟨y 0, y 1, eq_ix2 y⟩
  obtain rfl : u = 0 := Subsingleton.elim _ _
  rw [Cert.NodeLinearPay.pay1_apply q]
  show (0 : EReal) = ∑ r ∈ Finset.univ.filter (fun r : Fin 100000 => r.val < 0 * 5000), X (ix2 r q)
  rw [Nat.zero_mul, BlockSum.partial_zero]

theorem zero_eq_partSq (X : Mat 100000 128) : k0_pay2 (F := Ideal) = partSq X (0 * 5000) := by
  funext y
  obtain ⟨u, q, rfl⟩ : ∃ (u : Fin 1) (q : Fin 128), y = ix2 u q := ⟨y 0, y 1, eq_ix2 y⟩
  obtain rfl : u = 0 := Subsingleton.elim _ _
  rw [Cert.NodeLinearPay.pay2_apply q]
  show (0 : EReal) = ∑ r ∈ Finset.univ.filter (fun r : Fin 100000 => r.val < 0 * 5000), X (ix2 r q) * X (ix2 r q)
  rw [Nat.zero_mul, BlockSum.partial_zero]

/-- The block indices, decided over the 20 points: the averaged features and the output move with the point along
    the rows; the weights, the bias and the two accumulators never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem point_le {n : ℕ} (h : n < cfg0.N) : (n + 1) * 5000 ≤ 100000 := by
  have : n < 20 := lt_of_lt_of_eq h (show cfg0.N = 20 from N_0)
  omega

/-- The block of averaged features at point t, entry (p, k): the array at (t · 5000 + p, k). -/
theorem agg_apply (c : Dev nD) (t : Fin cfg0.N) (p : Fin 5000) (k : Fin 128) :
    iblk0 V c 0 t (ix2 p k) = V c main_v18 (ix2 (blockRow t.val (point_le t.isLt) p) k) := by
  obtain ⟨e0, e1, -⟩ := idx_facts t
  show V c main_v18 (((cfg0.win 0).blk t).view.emb (ix2 p k)) = _
  refine congrArg (V c main_v18) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weights are read whole at every point … -/
theorem weight_apply (c : Dev nD) (t : Fin cfg0.N) (n k : Fin 128) :
    iblk0 V c 1 t (ix2 n k) = V c main_arg4 (ix2 n k) := by
  obtain ⟨-, -, e0, e1, -⟩ := idx_facts t
  show V c main_arg4 (((cfg0.win 1).blk t).view.emb (ix2 n k)) = _
  refine congrArg (V c main_arg4) (funext fun a => Fin.ext ?_)
  match a with
  | ⟨0, _⟩ => show win0_1.index t (0 : Fin 2) * 128 + 1 * n.val = n.val; rw [e0]; omega
  | ⟨1, _⟩ => show win0_1.index t (1 : Fin 2) * 128 + 1 * k.val = k.val; rw [e1]; omega

/-- … and so is the bias row. -/
theorem bias_apply (c : Dev nD) (t : Fin cfg0.N) (n : Fin 128) :
    iblk0 V c 2 t (ix2 0 n) = V c main_v19 (ix2 0 n) := by
  obtain ⟨-, -, -, -, e0, e1, -⟩ := idx_facts t
  show V c main_v19 (((cfg0.win 2).blk t).view.emb (ix2 0 n)) = _
  refine congrArg (V c main_v19) (funext fun a => Fin.ext ?_)
  match a with
  | ⟨0, _⟩ => show win0_2.index t (0 : Fin 2) * 1 + 1 * 0 = 0; rw [e0]
  | ⟨1, _⟩ => show win0_2.index t (1 : Fin 2) * 128 + 1 * n.val = n.val; rw [e1]; omega

/-- The block the body stores at point t is block t of the linear layer's output: row p of it is the product of
    row t · 5000 + p of the averaged features with the transposed weights, plus the bias. -/
theorem lin_block (c : Dev nD) (t : Fin cfg0.N) :
    k0_pay3 (F := Ideal) (iblk0 V c 0 t) (iblk0 V c 1 t) (iblk0 V c 2 t) = hblock (hlin V c) t.val (point_le t.isLt) := by
  funext y
  obtain ⟨p, n, rfl⟩ : ∃ (p : Fin 5000) (n : Fin 128), y = ix2 p n := ⟨y 0, y 1, eq_ix2 y⟩
  refine (Cert.NodeLinearPay.pay3_apply (iblk0 V c 0 t) (iblk0 V c 1 t) (iblk0 V c 2 t) p n).trans ?_
  show _ = linear (V c main_v18) (V c main_arg4) (fun k => V c main_v19 (ix2 0 (k 0))) (ix2 (blockRow t.val (point_le t.isLt) p) n)
  rw [linear_apply, bias_apply V c t n]
  refine congrArg (· + V c main_v19 (ix2 0 n)) (Finset.sum_congr rfl fun k _ => ?_)
  rw [agg_apply V c t p k, weight_apply V c t n k]

/-- THE ACCUMULATION. After point n the three staging buffers hold block n of the linear layer's output, the column
    sums over the rows below (n + 1) · 5000, and the column sums of squares over the same rows — by induction on the
    point: the first point starts both accumulators from zero, every later point adds its block to what the point
    before left. -/
theorem outsAt_eq (c : Dev nD) : ∀ (n : ℕ) (h : n < cfg0.N),
    outsAt0 V c n h = (hblock (hlin V c) n (point_le h), partSum (hlin V c) ((n + 1) * 5000), partSq (hlin V c) ((n + 1) * 5000))
  | 0, h => by
    rw [outsAt0_A V c ⟨0, h⟩ rfl, outA3, outA4, outA5]
    exact congrArg₂ Prod.mk (lin_block V c ⟨0, h⟩) (congrArg₂ Prod.mk
      (partSum_step (hlin V c) 0 (point_le h) _ (lin_block V c ⟨0, h⟩) _ (zero_eq_partSum (hlin V c)) _
        (fun q => Cert.NodeLinearPay.pay4_apply _ _ _ _ q))
      (partSq_step (hlin V c) 0 (point_le h) _ (lin_block V c ⟨0, h⟩) _ (zero_eq_partSq (hlin V c)) _
        (fun q => Cert.NodeLinearPay.pay5_apply _ _ _ _ q)))
  | n + 1, h => by
    have hN : n + 1 < 20 := lt_of_lt_of_eq h (show cfg0.N = 20 from N_0)
    have hB : ¬(⟨n + 1, h⟩ : Fin cfg0.N).val % 20 = 0 := by dsimp only; omega
    have ih := outsAt_eq c n (Nat.lt_of_succ_lt h)
    rw [outsAt0_B V c ⟨n + 1, h⟩ hB, outB3, outB4, outB5]
    show (_, k0_pay4 _ _ _ (outsAt0 V c n _).2.1, k0_pay5 _ _ _ (outsAt0 V c n _).2.2) = _
    rw [ih]
    dsimp only
    exact congrArg₂ Prod.mk (lin_block V c ⟨n + 1, h⟩) (congrArg₂ Prod.mk
      (partSum_step (hlin V c) (n + 1) (point_le h) _ (lin_block V c ⟨n + 1, h⟩) (partSum (hlin V c) ((n + 1) * 5000)) rfl _
        (fun q => Cert.NodeLinearPay.pay4_apply _ _ _ _ q))
      (partSq_step (hlin V c) (n + 1) (point_le h) _ (lin_block V c ⟨n + 1, h⟩) (partSq (hlin V c) ((n + 1) * 5000)) rfl _
        (fun q => Cert.NodeLinearPay.pay5_apply _ _ _ _ q)))

end Cert.NodeLinear

end
-- ==== Proof.NodeLinear.lean ====
/-
  Region 0, the arrays it leaves: the linear layer's output and its column statistics.

  After point `n` the three output buffers hold block `n` of the linear layer's output `x · Wᵀ + b` and the column
  sums, and column sums of squares, over the rows below `(n + 1) · 5000` (the induction of the points module). The
  block buffer is written back at every point, to rows `n · 5000, …, n · 5000 + 4999` of its array; row `r` lies in
  block `r / 5000`, so the 20 blocks tile the array, which ends holding the linear layer's output. The two
  accumulators are written back once, after the last point, when the rows below `20 · 5000` are all the rows: their
  arrays end holding the column sums and the column sums of squares of the linear layer's output.
-/
import proofs.«108555_j3255585210595_1_alg».proof.Proof.NodeLinearPoints

noncomputable section

open Idealize.ShloMosaic Idealize.ShloMosaic.TcCoe Idealize.SL.Sem
open Idealize.ShloMosaic.Pipeline (Dat)

namespace Cert.NodeLinear

open Cert.KernelIdeal Cert.KernelIdeal.Gen Cert.Spec Idealize.ShloMosaic.ValueIdx

variable (V : (c : Dev nD) → (b : Ref sig .tc) → Buf (Elt Ideal) ((c : Thread nD τ).loc b))

/-! ## The block array -/

/-- Entry (p, q) of the output block at point t sits at (t · 5000 + p, q) of the array of linear-layer outputs. -/
theorem outblock_emb (t : Fin cfg0.N) (p : Fin 5000) (q : Fin 128) :
    ((cfg0.win 3).blk t).view.emb (ix2 p q) = ix2 (blockRow t.val (point_le t.isLt) p) q := by
  obtain ⟨-, -, -, -, -, -, e0, e1, -⟩ := idx_facts t
  refine funext fun a => Fin.ext ?_
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- What point t writes back to the block array is block t of the linear layer's output. -/
theorem flushed3_eq (c : Dev nD) (t : Fin cfg0.N) :
    (dat0 (F := Ideal) V c).flushed 3 t = ((cfg0.win 3).blk t).view.read (Elt Ideal) (hlin V c) := by
  show (cfg0.win 3).cut (grid0.coords t) ((dat0 V c).after 3 t) = _
  rw [after0_3, outsAt_eq V c t.val t.isLt]
  funext y
  obtain ⟨p, q, rfl⟩ : ∃ (p : Fin 5000) (q : Fin 128), y = ix2 p q := ⟨y 0, y 1, eq_ix2 y⟩
  show hlin V c (ix2 (blockRow t.val (point_le t.isLt) p) q) = hlin V c (((cfg0.win 3).blk t).view.emb (ix2 p q))
  rw [outblock_emb t p q]

/-- An index of the block array is in point t's block iff, on each axis, it lies in the block's range. -/
theorem mem_block3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20_0).slice (win0_3.rect t)).set ↔ _
  rw [View.set_slice_whole, Rect.mem_set_unit]
  exact Iff.rfl

/-- Row r lies in block r / 5000, and every point writes its block back. -/
theorem rows_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1, -⟩ := idx_facts t
  have et : t.val = (i 0).val / 5000 := rfl
  refine ⟨t, flush0_3 t, ?_⟩
  rw [mem_block3]
  intro a
  match a with
  | ⟨0, _⟩ => show win0_3.index t (0 : Fin 2) * 5000 ≤ (i 0).val ∧ (i 0).val < win0_3.index t (0 : Fin 2) * 5000 + 5000; rw [e0, et]; omega
  | ⟨1, _⟩ => show win0_3.index t (1 : Fin 2) * 128 ≤ (i 1).val ∧ (i 1).val < win0_3.index t (1 : Fin 2) * 128 + 128; rw [e1]; omega

/-- The block array after the region: the linear layer applied to the averaged features. -/
theorem final0_3 (c : Dev nD) : (dat0 (F := Ideal) V c).arrAt 3 cfg0.N
    = linear (V c main_v18) (V c main_arg4) (fun k => V c main_v19 (ix2 0 (k 0))) :=
  (dat0 (F := Ideal) V c).arrAt_eq_of_cover 3 (hlin V c) (fun t _ => flushed3_eq V c t) rows_covered

/-! ## The two accumulators

They are written back once, after the last point, when they hold the sums over all 20 blocks, that is over every
row; their one block is the whole 1 × 128 array. -/

/-- Over all 20 blocks the partial column sums are the column sums … -/
theorem partSum_all (X : Mat 100000 128) : partSum X (20 * 5000) = fun k => colSum X (k 1) := by
  funext y
  exact BlockSum.partial_full (fun r : Fin 100000 => X (ix2 r (y 1))) (20 * 5000) (by norm_num)

/-- … and the partial column sums of squares are the column sums of squares. -/
theorem partSq_all (X : Mat 100000 128) : partSq X (20 * 5000) = fun k => colSumSq X (k 1) := by
  funext y
  exact BlockSum.partial_full (fun r : Fin 100000 => X (ix2 r (y 1)) * X (ix2 r (y 1))) (20 * 5000) (by norm_num)

theorem last_point (t : Fin cfg0.N) (h : t.val % 20 = 19) : t.val = 19 := by
  have : t.val < 20 := lt_of_lt_of_eq t.isLt (show cfg0.N = 20 from N_0)
  omega

/-- At every point the block of the sums' array is the whole array: a 1 × 128 row read through it is itself. -/
theorem whole_row4 (t : Fin cfg0.N) (G : S1x128.Idx → EReal) :
    (cfg0.win 4).cut (grid0.coords t) G = ((cfg0.win 4).blk t).view.read (Elt Ideal) G := by
  obtain ⟨-, -, -, -, -, -, -, -, e0, e1, -⟩ := idx_facts t
  funext y
  obtain ⟨u, q, rfl⟩ : ∃ (u : Fin 1) (q : Fin 128), y = ix2 u q := ⟨y 0, y 1, eq_ix2 y⟩
  show G (ix2 u q) = G (((cfg0.win 4).blk t).view.emb (ix2 u q))
  refine congrArg G (funext fun a => Fin.ext ?_)
  match a with
  | ⟨0, _⟩ => show u.val = win0_4.index t (0 : Fin 2) * 1 + 1 * u.val; rw [e0]; omega
  | ⟨1, _⟩ => show q.val = win0_4.index t (1 : Fin 2) * 128 + 1 * q.val; rw [e1]; omega

/-- The same for the array of sums of squares. -/
theorem whole_row5 (t : Fin cfg0.N) (G : S1x128.Idx → EReal) :
    (cfg0.win 5).cut (grid0.coords t) G = ((cfg0.win 5).blk t).view.read (Elt Ideal) G := by
  obtain ⟨-, -, -, -, -, -, -, -, -, -, e0, e1⟩ := idx_facts t
  funext y
  obtain ⟨u, q, rfl⟩ : ∃ (u : Fin 1) (q : Fin 128), y = ix2 u q := ⟨y 0, y 1, eq_ix2 y⟩
  show G (ix2 u q) = G (((cfg0.win 5).blk t).view.emb (ix2 u q))
  refine congrArg G (funext fun a => Fin.ext ?_)
  match a with
  | ⟨0, _⟩ => show u.val = win0_5.index t (0 : Fin 2) * 1 + 1 * u.val; rw [e0]; omega
  | ⟨1, _⟩ => show q.val = win0_5.index t (1 : Fin 2) * 128 + 1 * q.val; rw [e1]; omega

/-- The one write-back of the sums, at the last point, writes the column sums of the linear layer's output. -/
theorem flushed4_eq (c : Dev nD) (t : Fin cfg0.N) (hf : (cfg0.win 4).flush t = true) :
    (dat0 (F := Ideal) V c).flushed 4 t
      = ((cfg0.win 4).blk t).view.read (Elt Ideal) (fun k => colSum (hlin V c) (k 1)) := by
  have h19 : t.val = 19 := last_point t ((flush0_4 t).mp hf)
  have hall : partSum (hlin V c) ((t.val + 1) * 5000) = fun k => colSum (hlin V c) (k 1) := by
    rw [h19]; exact partSum_all (hlin V c)
  show (cfg0.win 4).cut (grid0.coords t) ((dat0 V c).after 4 t) = _
  rw [after0_4, outsAt_eq V c t.val t.isLt]
  dsimp only
  rw [hall]
  exact whole_row4 t _

/-- The one write-back of the sums of squares likewise. -/
theorem flushed5_eq (c : Dev nD) (t : Fin cfg0.N) (hf : (cfg0.win 5).flush t = true) :
    (dat0 (F := Ideal) V c).flushed 5 t
      = ((cfg0.win 5).blk t).view.read (Elt Ideal) (fun k => colSumSq (hlin V c) (k 1)) := by
  have h19 : t.val = 19 := last_point t ((flush0_5 t).mp hf)
  have hall : partSq (hlin V c) ((t.val + 1) * 5000) = fun k => colSumSq (hlin V c) (k 1) := by
    rw [h19]; exact partSq_all (hlin V c)
  show (cfg0.win 5).cut (grid0.coords t) ((dat0 V c).after 5 t) = _
  rw [after0_5, outsAt_eq V c t.val t.isLt]
  dsimp only
  rw [hall]
  exact whole_row5 t _

/-- The last point. -/
def lastPoint : Fin cfg0.N := ⟨19, by rw [show cfg0.N = 20 from N_0]; decide⟩

/-- The last point's block of the sums' array is the whole array. -/
theorem row_covered4 (i : S1x128.Idx) :
    ∃ t : Fin cfg0.N, (cfg0.win 4).flush t = true ∧ i ∈ ((cfg0.win 4).blk t).view.set := by
  have hi0 : (i 0).val < 1 := (i 0).isLt
  have hi1 : (i 1).val < 128 := (i 1).isLt
  obtain ⟨-, -, -, -, -, -, -, -, e0, e1, -⟩ := idx_facts lastPoint
  refine ⟨lastPoint, (flush0_4 lastPoint).mpr rfl, ?_⟩
  show i ∈ ((View.whole main_v20_1).slice (win0_4.rect lastPoint)).set
  rw [View.set_slice_whole, Rect.mem_set_unit]
  intro a
  match a with
  | ⟨0, _⟩ => show win0_4.index lastPoint (0 : Fin 2) * 1 ≤ (i 0).val ∧ (i 0).val < win0_4.index lastPoint (0 : Fin 2) * 1 + 1; rw [e0]; omega
  | ⟨1, _⟩ => show win0_4.index lastPoint (1 : Fin 2) * 128 ≤ (i 1).val ∧ (i 1).val < win0_4.index lastPoint (1 : Fin 2) * 128 + 128; rw [e1]; omega

/-- The last point's block of the array of sums of squares is the whole array. -/
theorem row_covered5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  obtain ⟨-, -, -, -, -, -, -, -, -, -, e0, e1⟩ := idx_facts lastPoint
  refine ⟨lastPoint, (flush0_5 lastPoint).mpr rfl, ?_⟩
  show i ∈ ((View.whole main_v20_2).slice (win0_5.rect lastPoint)).set
  rw [View.set_slice_whole, Rect.mem_set_unit]
  intro a
  match a with
  | ⟨0, _⟩ => show win0_5.index lastPoint (0 : Fin 2) * 1 ≤ (i 0).val ∧ (i 0).val < win0_5.index lastPoint (0 : Fin 2) * 1 + 1; rw [e0]; omega
  | ⟨1, _⟩ => show win0_5.index lastPoint (1 : Fin 2) * 128 ≤ (i 1).val ∧ (i 1).val < win0_5.index lastPoint (1 : Fin 2) * 128 + 128; rw [e1]; omega

/-- The array of sums after the region: the column sums of the linear layer's output. -/
theorem final0_4 (c : Dev nD) : (dat0 (F := Ideal) V c).arrAt 4 cfg0.N
    = fun k => colSum (linear (V c main_v18) (V c main_arg4) (fun k => V c main_v19 (ix2 0 (k 0)))) (k 1) :=
  (dat0 (F := Ideal) V c).arrAt_eq_of_cover 4 (fun k => colSum (hlin V c) (k 1)) (flushed4_eq V c) row_covered4

/-- The array of sums of squares after the region: the column sums of squares of the linear layer's output. -/
theorem final0_5 (c : Dev nD) : (dat0 (F := Ideal) V c).arrAt 5 cfg0.N
    = fun k => colSumSq (linear (V c main_v18) (V c main_arg4) (fun k => V c main_v19 (ix2 0 (k 0)))) (k 1) :=
  (dat0 (F := Ideal) V c).arrAt_eq_of_cover 5 (fun k => colSumSq (hlin V c) (k 1)) (flushed5_eq V c) row_covered5

end Cert.NodeLinear

end
-- ==== Proof.NodeApply.lean ====
/-
  Region 1: the node features normalised, rectified and added to the node's own features.

  The region walks the 100000 × 128 array of linear-layer outputs in 20 blocks of 5000 rows. At every point the
  body reads the block `h` of that array, the matching block `f` of the node features, and four rows read whole
  at every point — the column means `μ`, the column variances `v`, the scale `g` and the shift `b`, each a
  1 × 128 array — and stores `f + max ((h - μ) · rsqrt (v + ε) · g + b, 0)`: every row of the block is treated
  against the same four rows. Row `p` of block `t` is row `5000 · t + p` of the arrays, and row `r` lies in
  block `r / 5000`, so the 20 blocks tile the output array, which therefore ends holding that one function of
  the arrays the region was entered with.
-/
import proofs.«108555_j3255585210595_1_alg».proof.Proof.Gen.KernelIdeal.Frame
import proofs.«108555_j3255585210595_1_alg».proof.Proof.Spec
import proofs.«108555_j3255585210595_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.NodeApply

open Cert.KernelIdeal Cert.KernelIdeal.Gen Cert.Spec Idealize.ShloMosaic.ValueIdx

/-- The stabiliser added to the variance under the inverse square root: one float word, the same in both programs,
    whose value is never needed. -/
abbrev EPS : EReal := Ideal.ofBits .f32 0x3727C5AC#32

theorem hz : (![0, 0] : Fin 2 → Nat) = fun _ => 0 := funext fun a => by fin_cases a <;> rfl

/-- The value the body stores at entry (p, q) of the block: the feature entry plus the rectified normalised entry,
    the statistics, scale and shift taken at column q of their one row. -/
theorem stored_apply (h f : Vec Ideal S5000x128 .f32) (mu v g b : Vec Ideal S1x128 .f32) (p : Fin 5000) (q : Fin 128) :
    k1_pay1 (F := Ideal) h mu v g b f (ix2 p q)
      = f (ix2 p q) + max ((h (ix2 p q) - mu (ix2 0 q)) * Ideal.rsqrt (v (ix2 0 q) + EPS) * g (ix2 0 q) + b (ix2 0 q)) 0 := by
  unfold k1_pay1
  simp only [shapeCast_self]
  simp only [addf_apply, maximumf_apply, mulf_apply, subf_apply, broadcast_apply, broadcastTo_1b_ab_apply]
  rw [show (FloatOps.ofBits (F := Ideal) FTy.f32 0x00000000#32) = (0 : EReal) from Cert.Consts.ofBits_zero]
  rfl

variable (V : (c : Dev nD) → (b : Ref sig .tc) → Buf (Elt Ideal) ((c : Thread nD τ).loc b))

/-- What the output array ends holding: the linear-layer outputs as entered, normalised against the four rows as
    entered, rectified, and added to the node features as entered. -/
abbrev result (c : Dev nD) : Mat 100000 128 :=
  normRelu EPS (V c main_v20_0) (V c main_arg0) (fun j => V c main_v22 (ix2 0 j)) (fun j => V c main_v26 (ix2 0 j))
    (fun j => V c main_v27 (ix2 0 j)) (fun j => V c main_v28 (ix2 0 j))

/-- The block indices, decided over the 20 points: the two big inputs and the output move with the point along the
    rows; the four rows never move. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 20 := lt_of_lt_of_eq t.isLt (show cfg1.N = 20 from N_1)

/-- Row p of block t is row 5000 · t + p of the array. -/
def arrRow (t : Fin cfg1.N) (p : Fin 5000) : Fin 100000 :=
  ⟨5000 * t.val + p.val, by have := point_lt t; have := p.isLt; omega⟩

/-- The block of linear-layer outputs at point t, entry (p, q): the array at (5000 · t + p, q). -/
theorem hblock_apply (c : Dev nD) (t : Fin cfg1.N) (p : Fin 5000) (q : Fin 128) :
    iblk1 V c 0 t (ix2 p q) = V c main_v20_0 (ix2 (arrRow t p) q) := by
  obtain ⟨e0, e1, -⟩ := idx_facts t
  show V c main_v20_0 (((cfg1.win 0).blk t).view.emb (ix2 p q)) = _
  refine congrArg (V c main_v20_0) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- The block of node features at point t, entry (p, q): the feature array at (5000 · t + p, q). -/
theorem fblock_apply (c : Dev nD) (t : Fin cfg1.N) (p : Fin 5000) (q : Fin 128) :
    iblk1 V c 1 t (ix2 p q) = V c main_arg0 (ix2 (arrRow t p) q) := by
  obtain ⟨-, -, e0, e1, -⟩ := idx_facts t
  show V c main_arg0 (((cfg1.win 1).blk t).view.emb (ix2 p q)) = _
  refine congrArg (V c main_arg0) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 128 + 1 * q.val = q.val; rw [e1]; omega

/-- The row of means is read whole at every point … -/
theorem mean_apply (c : Dev nD) (t : Fin cfg1.N) (q : Fin 128) : iblk1 V c 2 t (ix2 0 q) = V c main_v22 (ix2 0 q) := by
  obtain ⟨-, -, -, -, e0, e1, -⟩ := idx_facts t
  show V c main_v22 (((cfg1.win 2).blk t).view.emb (ix2 0 q)) = _
  refine congrArg (V c main_v22) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- … and so are the row of variances, … -/
theorem var_apply (c : Dev nD) (t : Fin cfg1.N) (q : Fin 128) : iblk1 V c 3 t (ix2 0 q) = V c main_v26 (ix2 0 q) := by
  obtain ⟨-, -, -, -, -, -, e0, e1, -⟩ := idx_facts t
  show V c main_v26 (((cfg1.win 3).blk t).view.emb (ix2 0 q)) = _
  refine congrArg (V c main_v26) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- … the row of scales … -/
theorem scale_apply (c : Dev nD) (t : Fin cfg1.N) (q : Fin 128) : iblk1 V c 4 t (ix2 0 q) = V c main_v27 (ix2 0 q) := by
  obtain ⟨-, -, -, -, -, -, -, -, e0, e1, -⟩ := idx_facts t
  show V c main_v27 (((cfg1.win 4).blk t).view.emb (ix2 0 q)) = _
  refine congrArg (V c main_v27) (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- … and the row of shifts. -/
theorem shift_apply (c : Dev nD) (t : Fin cfg1.N) (q : Fin 128) : iblk1 V c 5 t (ix2 0 q) = V c main_v28 (ix2 0 q) := by
  obtain ⟨-, -, -, -, -, -, -, -, -, -, e0, e1, -⟩ := idx_facts t
  show V c main_v28 (((cfg1.win 5).blk t).view.emb (ix2 0 q)) = _
  refine congrArg (V c main_v28) (funext fun a => Fin.ext ?_)
  match a with
  | ⟨0, _⟩ => show win1_5.index t (0 : Fin 2) * 1 + 1 * 0 = 0; rw [e0]
  | ⟨1, _⟩ => show win1_5.index t (1 : Fin 2) * 128 + 1 * q.val = q.val; rw [e1]; omega

/-- Entry (p, q) of the output block at point t sits at (5000 · t + p, q) of the output array. -/
theorem outblock_emb (t : Fin cfg1.N) (p : Fin 5000) (q : Fin 128) :
    ((cfg1.win 6).blk t).view.emb (ix2 p q) = ix2 (arrRow t p) q := by
  obtain ⟨-, -, -, -, -, -, -, -, -, -, -, -, e0, e1⟩ := idx_facts t
  refine funext fun a => Fin.ext ?_
  match a with
  | ⟨0, _⟩ => show win1_6.index t (0 : Fin 2) * 5000 + 1 * p.val = 5000 * t.val + p.val; rw [e0]; omega
  | ⟨1, _⟩ => show win1_6.index t (1 : Fin 2) * 128 + 1 * q.val = q.val; rw [e1]; omega

/-- What point t writes back is block t of `result`. -/
theorem flushed_eq (c : Dev nD) (t : Fin cfg1.N) :
    (dat1 (F := Ideal) V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz]
  funext y
  obtain ⟨p, q, rfl⟩ : ∃ (p : Fin 5000) (q : Fin 128), y = ix2 p q := ⟨y 0, y 1, eq_ix2 y⟩
  show k1_pay1 (F := Ideal) (iblk1 V c 0 t) (iblk1 V c 2 t) (iblk1 V c 3 t) (iblk1 V c 4 t) (iblk1 V c 5 t) (iblk1 V c 1 t) (ix2 p q)
    = result V c (((cfg1.win 6).blk t).view.emb (ix2 p q))
  refine (stored_apply (iblk1 V c 0 t) (iblk1 V c 1 t) (iblk1 V c 2 t) (iblk1 V c 3 t) (iblk1 V c 4 t) (iblk1 V c 5 t) p q).trans ?_
  rw [outblock_emb t p q, hblock_apply V c t p q, fblock_apply V c t p q, mean_apply V c t q, var_apply V c t q,
    scale_apply V c t q, shift_apply V c t q]
  rfl

/-- An index of the output array is in point t's block iff, on each axis, it lies in the block's range. -/
theorem mem_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- Row r of the output array lies in block r / 5000, and every point writes its block back. -/
theorem rows_covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, -, -, e0, e1⟩ := idx_facts t
  have et : t.val = (i 0).val / 5000 := rfl
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; rw [e0, et]; omega
  | ⟨1, _⟩ => show win1_6.index t (1 : Fin 2) * 128 ≤ (i 1).val ∧ (i 1).val < win1_6.index t (1 : Fin 2) * 128 + 128; rw [e1]; omega

/-- The output array after the region: the normalised, rectified linear-layer outputs added to the node features. -/
theorem final1 (c : Dev nD) : (dat1 (F := Ideal) V c).arrAt 6 cfg1.N
    = normRelu EPS (V c main_v20_0) (V c main_arg0) (fun j => V c main_v22 (ix2 0 j)) (fun j => V c main_v26 (ix2 0 j))
        (fun j => V c main_v27 (ix2 0 j)) (fun j => V c main_v28 (ix2 0 j)) :=
  (dat1 (F := Ideal) V c).arrAt_eq_of_cover 6 (result V c) (fun t _ => flushed_eq V c t) rows_covered

end Cert.NodeApply

end
-- ==== Proof.EdgeStatsBody.lean ====
/-
  The second region, one grid point at a time: what the body adds to its two accumulators.

  The region walks the 1600000 × 128 edge array in 160 blocks of 10000 rows and keeps two 1 × 128 accumulators.
  At every point the body adds to the first accumulator, column by column, the sum of the block's 10000 entries
  in that column, and to the second the sum of their squares; at the first point it first resets both to zero.

  This module reads the body's stored rows at a column (the carried row's entry plus the block's column sum),
  identifies what each of the two cases of the body (the first point, the other points) leaves in the two
  accumulators, and states the accumulation as a recurrence on partial column sums: if the block at hand holds
  rows 10000 n, …, 10000 n + 9999 of an array e and the carried row holds the column sums of the rows below
  10000 n, then the stored row holds the column sums of the rows below 10000 (n + 1).
-/
import proofs.«108555_j3255585210595_1_alg».proof.Proof.Gen.KernelIdeal.Frame
import proofs.«108555_j3255585210595_1_alg».proof.Proof.Spec
import proofs.«108555_j3255585210595_1_alg».proof.Proof.Consts
import proofs.«108555_j3255585210595_1_alg».proof.Proof.LibRank2
import proofs.«108555_j3255585210595_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.EdgeStats

open Cert.KernelIdeal Cert.KernelIdeal.Gen Cert.Spec
open Idealize.ShloMosaic Idealize.ShloMosaic.ValueIdx Idealize.ShloMosaic.TcCoe Idealize.SL.Sem
open scoped BigOperators

theorem hz : (![0, 0] : Fin 2 → Nat) = fun _ => 0 := funext fun a => by fin_cases a <;> rfl

/-! ## The body's stored rows, read at a column -/

/-- The row stored into the first accumulator, at column q: the carried row's entry plus the sum of the block's
    10000 entries in column q. -/
theorem pay3_apply (x0 : Vec Ideal S10000x128 .f32) (v4 : Vec Ideal S1x128 .f32) (q : Fin 128) :
    k2_pay3 (F := Ideal) x0 v4 (ix2 0 q) = v4 (ix2 0 q) + ∑ k : Fin 10000, x0 (ix2 k q) := by
  unfold k2_pay3
  simp only [shapeCast_self]
  show v4 (ix2 0 q) + shapeCast S1x128 (multiReduction (F := Ideal) .add [0] S128 x0 0x00000000#32 reduces_S10000x128_S128 (.inl rfl) rfl) shapeCasts_S128_S1x128 (ix2 0 q) = _
  refine congrArg (v4 (ix2 0 q) + ·) ?_
  refine (shapeCast_a_1a_apply _ _ 0 q).trans ?_
  exact Cert.LibRank2.sum_first x0 _ _ _ _ q

/-- The row stored into the second accumulator, at column q: the carried row's entry plus the sum of the squares
    of the block's 10000 entries in column q. -/
theorem pay4_apply (x0 : Vec Ideal S10000x128 .f32) (v10 : Vec Ideal S1x128 .f32) (q : Fin 128) :
    k2_pay4 (F := Ideal) x0 v10 (ix2 0 q) = v10 (ix2 0 q) + ∑ k : Fin 10000, x0 (ix2 k q) * x0 (ix2 k q) := by
  unfold k2_pay4
  simp only [shapeCast_self]
  show v10 (ix2 0 q) + shapeCast S1x128 (multiReduction (F := Ideal) .add [0] S128 (mulf x0 x0) 0x00000000#32 reduces_S10000x128_S128 (.inl rfl) rfl) shapeCasts_S128_S1x128 (ix2 0 q) = _
  refine congrArg (v10 (ix2 0 q) + ·) ?_
  refine (shapeCast_a_1a_apply _ _ 0 q).trans ?_
  exact Cert.LibRank2.sum_first (mulf (F := Ideal) x0 x0) _ _ _ _ q

/-- The two rows the first point resets the accumulators to are zero everywhere. -/
theorem pay1_apply (k : S1x128.Idx) : k2_pay1 (F := Ideal) k = 0 := Cert.Consts.ofBits_zero
theorem pay2_apply (k : S1x128.Idx) : k2_pay2 (F := Ideal) k = 0 := Cert.Consts.ofBits_zero

/-! ## What each case of the body leaves in the accumulators -/
section cases
variable {F : FTy → Type} [FloatOps F]

/-- At a point other than the first, the first accumulator, holding the row xo1, ends holding the stored row
    computed from the block x0 and xo1: the one store covers the accumulator, and the loads read whole buffers. -/
theorem out_B_1 (c : Dev nD) (i : grid2.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond2_0 i) (x0 : Vec F S10000x128 .f32) (xo1 xo2 : Vec F S1x128 .f32) :
    out2_B_1 c i a1 h1 a2 h2 a3 h3 hc x0 xo1 xo2 = k2_pay3 x0 xo1 := by
  unfold out2_B_1
  rw [View.read_writes_eq_canon _ _ _ (cover2_B_1 c i a1 h1 a2 h2 a3 h3 hc x0 xo1 xo2)]
  unfold kernelRun2_B
  dsimp only
  rw [View.canon_unit_zero hz]
  simp only [View.readAt_eq_ld, h1.read_unread, h2.read_unread, View.ld_unit_zero (S := S10000x128) hz, View.ld_unit_zero (S := S1x128) hz]

/-- At a point other than the first, the second accumulator, holding xo2, ends holding the stored row computed
    from the block x0 and xo2. -/
theorem out_B_2 (c : Dev nD) (i : grid2.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond2_0 i) (x0 : Vec F S10000x128 .f32) (xo1 xo2 : Vec F S1x128 .f32) :
    out2_B_2 c i a1 h1 a2 h2 a3 h3 hc x0 xo1 xo2 = k2_pay4 x0 xo2 := by
  unfold out2_B_2
  rw [View.read_writes_eq_canon _ _ _ (cover2_B_2 c i a1 h1 a2 h2 a3 h3 hc x0 xo1 xo2)]
  unfold kernelRun2_B
  dsimp only
  rw [View.canon_unit_zero hz]
  simp only [View.readAt_eq_ld, h1.read_unread, h3.read_unread, View.ld_unit_zero (S := S10000x128) hz, View.ld_unit_zero (S := S1x128) hz]

/-- At the first point the first accumulator is reset to the zero row, read back, and ends holding the stored
    row computed from the block x0 and the zero row. -/
theorem out_A_1 (c : Dev nD) (i : grid2.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond2_0 i) (x0 : Vec F S10000x128 .f32) :
    out2_A_1 c i a1 h1 a2 h2 a3 h3 hc x0 = k2_pay3 x0 k2_pay1 := by
  unfold out2_A_1
  rw [View.read_writes_eq_canon _ _ _ (cover2_A_1 c i a1 h1 a2 h2 a3 h3 hc x0)]
  unfold kernelRun2_A
  dsimp only
  sl_unfold_words
  rw [View.canon_cons_unit_zero (S := S1x128) hz, View.readCov_unit_zero (S := S1x128) _ hz]
  simp only [View.readAt_eq_ld, h1.read_unread, View.ld_unit_zero (S := S10000x128) hz]

/-- At the first point the second accumulator likewise ends holding the stored row computed from the block x0
    and the zero row. -/
theorem out_A_2 (c : Dev nD) (i : grid2.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond2_0 i) (x0 : Vec F S10000x128 .f32) :
    out2_A_2 c i a1 h1 a2 h2 a3 h3 hc x0 = k2_pay4 x0 k2_pay2 := by
  unfold out2_A_2
  rw [View.read_writes_eq_canon _ _ _ (cover2_A_2 c i a1 h1 a2 h2 a3 h3 hc x0)]
  unfold kernelRun2_A
  dsimp only
  sl_unfold_words
  rw [View.canon_cons_unit_zero (S := S1x128) hz, View.readCov_unit_zero (S := S1x128) _ hz]
  simp only [View.readAt_eq_ld, h1.read_unread, View.ld_unit_zero (S := S10000x128) hz]

end cases

/-! ## Partial column sums and the recurrence they satisfy -/

/-- The sum of the entries of column q in the rows of index below n. -/
def part1 (e : Mat 1600000 128) (n : ℕ) (q : Fin 128) : EReal :=
  ∑ r ∈ Finset.univ.filter (fun r : Fin 1600000 => r.val < n), e (ix2 r q)

/-- The sum of the squared entries of column q in the rows of index below n. -/
def part2 (e : Mat 1600000 128) (n : ℕ) (q : Fin 128) : EReal :=
  ∑ r ∈ Finset.univ.filter (fun r : Fin 1600000 => r.val < n), e (ix2 r q) * e (ix2 r q)

/-- No row lies below row 0: both partial sums start at zero. -/
theorem part1_zero (e : Mat 1600000 128) (q : Fin 128) : part1 e 0 q = 0 :=
  BlockSum.partial_zero (fun r : Fin 1600000 => e (ix2 r q))
theorem part2_zero (e : Mat 1600000 128) (q : Fin 128) : part2 e 0 q = 0 :=
  BlockSum.partial_zero (fun r : Fin 1600000 => e (ix2 r q) * e (ix2 r q))

/-- One more block of 10000 rows adds exactly that block's 10000 terms. -/
theorem part1_step (e : Mat 1600000 128) (n : ℕ) (hn : (n + 1) * 10000 ≤ 1600000) (q : Fin 128) :
    part1 e ((n + 1) * 10000) q
      = part1 e (n * 10000) q + ∑ p : Fin 10000, e (ix2 ⟨n * 10000 + p.val, BlockSum.block_lt hn p⟩ q) :=
  BlockSum.partial_step (fun r : Fin 1600000 => e (ix2 r q)) 10000 n hn
theorem part2_step (e : Mat 1600000 128) (n : ℕ) (hn : (n + 1) * 10000 ≤ 1600000) (q : Fin 128) :
    part2 e ((n + 1) * 10000) q
      = part2 e (n * 10000) q + ∑ p : Fin 10000, e (ix2 ⟨n * 10000 + p.val, BlockSum.block_lt hn p⟩ q) * e (ix2 ⟨n * 10000 + p.val, BlockSum.block_lt hn p⟩ q) :=
  BlockSum.partial_step (fun r : Fin 1600000 => e (ix2 r q) * e (ix2 r q)) 10000 n hn

/-- Below row 1600000 lie all the rows: the partial sums are then the column's sum and sum of squares. -/
theorem part1_full (e : Mat 1600000 128) (q : Fin 128) : part1 e 1600000 q = colSum e q :=
  BlockSum.partial_full (fun r : Fin 1600000 => e (ix2 r q)) 1600000 (Nat.le_refl _)
theorem part2_full (e : Mat 1600000 128) (q : Fin 128) : part2 e 1600000 q = colSumSq e q :=
  BlockSum.partial_full (fun r : Fin 1600000 => e (ix2 r q) * e (ix2 r q)) 1600000 (Nat.le_refl _)

/-- The recurrence for the first accumulator: if the block holds rows 10000 n + p (p < 10000) of e and the
    carried row holds the column sums of the rows below 10000 n, the stored row holds the column sums of the
    rows below 10000 (n + 1). -/
theorem step1 (e : Mat 1600000 128) (n : ℕ) (hn : (n + 1) * 10000 ≤ 1600000) (blk : Vec Ideal S10000x128 .f32)
    (hblk : ∀ (p : Fin 10000) (q : Fin 128), blk (ix2 p q) = e (ix2 ⟨n * 10000 + p.val, BlockSum.block_lt hn p⟩ q))
    (prev : Vec Ideal S1x128 .f32) (hprev : ∀ q : Fin 128, prev (ix2 0 q) = part1 e (n * 10000) q) :
    k2_pay3 (F := Ideal) blk prev = fun k => part1 e ((n + 1) * 10000) (k 1) := by
  funext k
  obtain ⟨u, q, rfl⟩ : ∃ (u : Fin 1) (q : Fin 128), k = ix2 u q := ⟨k 0, k 1, eq_ix2 k⟩
  obtain rfl : u = 0 := Subsingleton.elim _ _
  refine (pay3_apply blk prev q).trans ?_
  show _ = part1 e ((n + 1) * 10000) q
  rw [hprev q, part1_step e n hn q]
  refine congrArg (part1 e (n * 10000) q + ·) ?_
  exact Finset.sum_congr rfl fun p _ => hblk p q

/-- The recurrence for the second accumulator, with squares. -/
theorem step2 (e : Mat 1600000 128) (n : ℕ) (hn : (n + 1) * 10000 ≤ 1600000) (blk : Vec Ideal S10000x128 .f32)
    (hblk : ∀ (p : Fin 10000) (q : Fin 128), blk (ix2 p q) = e (ix2 ⟨n * 10000 + p.val, BlockSum.block_lt hn p⟩ q))
    (prev : Vec Ideal S1x128 .f32) (hprev : ∀ q : Fin 128, prev (ix2 0 q) = part2 e (n * 10000) q) :
    k2_pay4 (F := Ideal) blk prev = fun k => part2 e ((n + 1) * 10000) (k 1) := by
  funext k
  obtain ⟨u, q, rfl⟩ : ∃ (u : Fin 1) (q : Fin 128), k = ix2 u q := ⟨k 0, k 1, eq_ix2 k⟩
  obtain rfl : u = 0 := Subsingleton.elim _ _
  refine (pay4_apply blk prev q).trans ?_
  show _ = part2 e ((n + 1) * 10000) q
  rw [hprev q, part2_step e n hn q]
  refine congrArg (part2 e (n * 10000) q + ·) ?_
  exact Finset.sum_congr rfl fun p _ => by rw [hblk p q]

end Cert.EdgeStats

end
-- ==== Proof.EdgeStats.lean ====
/-
  The second region: after it, the two accumulator arrays hold the column sums of the edge array and the
  column sums of its squares.

  The region walks the 1600000 × 128 edge array e in 160 blocks of 10000 rows: block t holds rows
  10000 t, …, 10000 t + 9999. By induction on the point, after point n the first accumulator holds, in column
  q, the sum of e's column q over the rows below 10000 (n + 1), and the second the sum of the squares: the first
  point starts from the zero rows (the rows below row 0 are none), and every later point adds its own block to
  what the point before left (the accumulators are not written back in between). The accumulators are written
  back once, after point 159, when the rows below 10000 · 160 = 1600000 are all the rows; the one 1 × 128 block
  written is the whole accumulator array.
-/
import proofs.«108555_j3255585210595_1_alg».proof.Proof.EdgeStatsBody

noncomputable section

namespace Cert.EdgeStats

open Cert.KernelIdeal Cert.KernelIdeal.Gen Cert.Spec
open Idealize.ShloMosaic Idealize.ShloMosaic.ValueIdx Idealize.ShloMosaic.TcCoe Idealize.SL.Sem
open Idealize.ShloMosaic.Pipeline (Dat)
open scoped BigOperators

/-! ## The region's blocks -/

/-- The block indices over the grid: the edge block is the point's, the two accumulator blocks stay put. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem point_lt (t : Fin cfg2.N) : t.val < 160 := lt_of_lt_of_eq t.isLt (show cfg2.N = 160 from N_2)

/-- The first t + 1 blocks of 10000 rows fit in the 1600000 rows. -/
theorem fits (t : Fin cfg2.N) : (t.val + 1) * 10000 ≤ 1600000 := by have := point_lt t; omega

variable (V : (c : Dev nD) → (b : Ref sig .tc) → Buf (Elt Ideal) ((c : Thread nD τ).loc b))

/-- The edge block at point t, entry (p, q): the edge array at (10000 t + p, q). -/
theorem blk0 (c : Dev nD) (t : Fin cfg2.N) (p : Fin 10000) (q : Fin 128) :
    iblk2 V c 0 t (ix2 p q) = V c main_arg1 (ix2 ⟨t.val * 10000 + p.val, BlockSum.block_lt (fits t) p⟩ q) := by
  obtain ⟨e0, e1, -⟩ := idx_facts t
  show V c main_arg1 (((cfg2.win 0).blk t).view.emb (ix2 p q)) = _
  refine congrArg (V c main_arg1) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 128 + 1 * q.val = q.val; rw [e1]; omega

/-! ## The accumulators after each point -/

/-- After the first point the accumulators hold the column sums (and sums of squares) of the first block. -/
theorem first_point (c : Dev nD) (t : Fin cfg2.N) (h0 : t.val % 160 = 0) (hz0 : t.val = 0) :
    outsAt2 (F := Ideal) V c t.val t.isLt
      = (fun k => part1 (V c main_arg1) ((t.val + 1) * 10000) (k 1), fun k => part2 (V c main_arg1) ((t.val + 1) * 10000) (k 1)) := by
  rw [outsAt2_A V c t h0, out_A_1, out_A_2]
  exact congrArg₂ Prod.mk
    (step1 (V c main_arg1) t.val (fits t) (iblk2 V c 0 t) (blk0 V c t) (k2_pay1 (F := Ideal))
      (fun q => by rw [pay1_apply, hz0, Nat.zero_mul, part1_zero]))
    (step2 (V c main_arg1) t.val (fits t) (iblk2 V c 0 t) (blk0 V c t) (k2_pay2 (F := Ideal))
      (fun q => by rw [pay2_apply, hz0, Nat.zero_mul, part2_zero]))

/-- A later point adds its block to what the point before left. -/
theorem later_point (c : Dev nD) (t : Fin cfg2.N) (h0 : ¬t.val % 160 = 0)
    (ih : outsAt2 (F := Ideal) V c (t.val - 1) (Nat.lt_of_le_of_lt (Nat.sub_le _ _) t.isLt)
      = (fun k => part1 (V c main_arg1) (t.val * 10000) (k 1), fun k => part2 (V c main_arg1) (t.val * 10000) (k 1))) :
    outsAt2 (F := Ideal) V c t.val t.isLt
      = (fun k => part1 (V c main_arg1) ((t.val + 1) * 10000) (k 1), fun k => part2 (V c main_arg1) ((t.val + 1) * 10000) (k 1)) := by
  rw [outsAt2_B V c t h0, out_B_1, out_B_2, ih]
  dsimp only
  exact congrArg₂ Prod.mk
    (step1 (V c main_arg1) t.val (fits t) (iblk2 V c 0 t) (blk0 V c t) (fun k => part1 (V c main_arg1) (t.val * 10000) (k 1)) (fun q => rfl))
    (step2 (V c main_arg1) t.val (fits t) (iblk2 V c 0 t) (blk0 V c t) (fun k => part2 (V c main_arg1) (t.val * 10000) (k 1)) (fun q => rfl))

/-- After point n the accumulators hold the column sums, and the column sums of squares, of the rows below
    10000 (n + 1): by induction on the point. -/
theorem outsAt_eq (c : Dev nD) : ∀ (n : ℕ) (h : n < cfg2.N),
    outsAt2 (F := Ideal) V c n h
      = (fun k => part1 (V c main_arg1) ((n + 1) * 10000) (k 1), fun k => part2 (V c main_arg1) ((n + 1) * 10000) (k 1))
  | 0, h => first_point V c ⟨0, h⟩ rfl rfl
  | n + 1, h =>
    later_point V c ⟨n + 1, h⟩ (by have hN : cfg2.N = 160 := N_2; dsimp only; omega) (outsAt_eq c n (Nat.lt_of_succ_lt h))

/-! ## The write-back after the last point -/

/-- An accumulator's block is the whole 1 × 128 array: entry (u, q) of the block is entry (u, q) of the array. -/
theorem emb1 (t : Fin cfg2.N) (u : Fin 1) (q : Fin 128) : ((cfg2.win 1).blk t).view.emb (ix2 u q) = ix2 u q := by
  obtain ⟨-, -, e0, e1, -⟩ := idx_facts t
  refine funext fun a => Fin.ext ?_
  match a with
  | ⟨0, _⟩ => show win2_1.index t (0 : Fin 2) * 1 + 1 * u.val = u.val; rw [e0]; omega
  | ⟨1, _⟩ => show win2_1.index t (1 : Fin 2) * 128 + 1 * q.val = q.val; rw [e1]; omega

/-- The same for the second accumulator. -/
theorem emb2 (t : Fin cfg2.N) (u : Fin 1) (q : Fin 128) : ((cfg2.win 2).blk t).view.emb (ix2 u q) = ix2 u q := by
  obtain ⟨-, -, -, -, e0, e1⟩ := idx_facts t
  refine funext fun a => Fin.ext ?_
  match a with
  | ⟨0, _⟩ => show win2_2.index t (0 : Fin 2) * 1 + 1 * u.val = u.val; rw [e0]; omega
  | ⟨1, _⟩ => show win2_2.index t (1 : Fin 2) * 128 + 1 * q.val = q.val; rw [e1]; omega

/-- What is written back of a row held in the first accumulator is that row read through the block. -/
theorem cut_eq_read_1 (t : Fin cfg2.N) (G : S1x128.Idx → EReal) :
    (cfg2.win 1).cut (grid2.coords t) G = ((cfg2.win 1).blk t).view.read (Elt Ideal) G := by
  funext y
  obtain ⟨u, q, rfl⟩ : ∃ (u : Fin 1) (q : Fin 128), y = ix2 u q := ⟨y 0, y 1, eq_ix2 y⟩
  show G _ = G (((cfg2.win 1).blk t).view.emb (ix2 u q))
  rw [emb1 t u q]
  refine congrArg G (funext fun a => Fin.ext ?_)
  match a with
  | ⟨0, _⟩ => rfl
  | ⟨1, _⟩ => rfl

/-- The same for the second accumulator. -/
theorem cut_eq_read_2 (t : Fin cfg2.N) (G : S1x128.Idx → EReal) :
    (cfg2.win 2).cut (grid2.coords t) G = ((cfg2.win 2).blk t).view.read (Elt Ideal) G := by
  funext y
  obtain ⟨u, q, rfl⟩ : ∃ (u : Fin 1) (q : Fin 128), y = ix2 u q := ⟨y 0, y 1, eq_ix2 y⟩
  show G _ = G (((cfg2.win 2).blk t).view.emb (ix2 u q))
  rw [emb2 t u q]
  refine congrArg G (funext fun a => Fin.ext ?_)
  match a with
  | ⟨0, _⟩ => rfl
  | ⟨1, _⟩ => rfl

/-- The one write-back of the first accumulator, after point 159, writes every column's sum: the rows below
    10000 · 160 are all the rows. -/
theorem flushed_eq_1 (c : Dev nD) (t : Fin cfg2.N) (hf : (cfg2.win 1).flush t = true) :
    (dat2 (F := Ideal) V c).flushed 1 t
      = ((cfg2.win 1).blk t).view.read (Elt Ideal) (fun k => colSum (V c main_arg1) (k 1)) := by
  have h159 : t.val = 159 := by have := (flush2_1 t).mp hf; have := point_lt t; omega
  have hn : (t.val + 1) * 10000 = 1600000 := by omega
  have hfun : (fun k : S1x128.Idx => part1 (V c main_arg1) ((t.val + 1) * 10000) (k 1)) = fun k => colSum (V c main_arg1) (k 1) :=
    funext fun k => (congrArg (fun n => part1 (V c main_arg1) n (k 1)) hn).trans (part1_full (V c main_arg1) (k 1))
  show (cfg2.win 1).cut (grid2.coords t) ((dat2 V c).after 1 t) = _
  rw [after2_1, outsAt_eq]
  dsimp only
  rw [hfun]
  exact cut_eq_read_1 t _

/-- The one write-back of the second accumulator writes every column's sum of squares. -/
theorem flushed_eq_2 (c : Dev nD) (t : Fin cfg2.N) (hf : (cfg2.win 2).flush t = true) :
    (dat2 (F := Ideal) V c).flushed 2 t
      = ((cfg2.win 2).blk t).view.read (Elt Ideal) (fun k => colSumSq (V c main_arg1) (k 1)) := by
  have h159 : t.val = 159 := by have := (flush2_2 t).mp hf; have := point_lt t; omega
  have hn : (t.val + 1) * 10000 = 1600000 := by omega
  have hfun : (fun k : S1x128.Idx => part2 (V c main_arg1) ((t.val + 1) * 10000) (k 1)) = fun k => colSumSq (V c main_arg1) (k 1) :=
    funext fun k => (congrArg (fun n => part2 (V c main_arg1) n (k 1)) hn).trans (part2_full (V c main_arg1) (k 1))
  show (cfg2.win 2).cut (grid2.coords t) ((dat2 V c).after 2 t) = _
  rw [after2_2, outsAt_eq]
  dsimp only
  rw [hfun]
  exact cut_eq_read_2 t _
/-- An index of the accumulator array is in point t's block iff each coordinate is in the block's range. -/
theorem mem_blk_1 (t : Fin cfg2.N) (i : S1x128.Idx) :
    i ∈ ((cfg2.win 1).blk t).view.set ↔ ∀ a : Fin 2, win2_1.index t a * S1x128.size a ≤ (i a).val ∧ (i a).val < win2_1.index t a * S1x128.size a + S1x128.size a := by
  show i ∈ ((View.whole main_v30_0).slice (win2_1.rect t)).set ↔ _
  rw [View.set_slice_whole, Rect.mem_set_unit]
  exact Iff.rfl

/-- The same for the second accumulator. -/
theorem mem_blk_2 (t : Fin cfg2.N) (i : S1x128.Idx) :
    i ∈ ((cfg2.win 2).blk t).view.set ↔ ∀ a : Fin 2, win2_2.index t a * S1x128.size a ≤ (i a).val ∧ (i a).val < win2_2.index t a * S1x128.size a + S1x128.size a := by
  show i ∈ ((View.whole main_v30_1).slice (win2_2.rect t)).set ↔ _
  rw [View.set_slice_whole, Rect.mem_set_unit]
  exact Iff.rfl

theorem last_lt : 159 < cfg2.N := by rw [show cfg2.N = 160 from N_2]; omega

/-- Every index of the first accumulator array lies in the block written back after the last point. -/
theorem cover_1 (i : S1x128.Idx) :
    ∃ t : Fin cfg2.N, (cfg2.win 1).flush t = true ∧ i ∈ ((cfg2.win 1).blk t).view.set := by
  have hi0 : (i 0).val < 1 := (i 0).isLt
  have hi1 : (i 1).val < 128 := (i 1).isLt
  obtain ⟨-, -, e0, e1, -⟩ := idx_facts ⟨159, last_lt⟩
  refine ⟨⟨159, last_lt⟩, (flush2_1 _).mpr rfl, ?_⟩
  rw [mem_blk_1]
  intro a
  match a with
  | ⟨0, _⟩ => show win2_1.index ⟨159, last_lt⟩ (0 : Fin 2) * 1 ≤ (i 0).val ∧ (i 0).val < win2_1.index ⟨159, last_lt⟩ (0 : Fin 2) * 1 + 1; rw [e0]; omega
  | ⟨1, _⟩ => show win2_1.index ⟨159, last_lt⟩ (1 : Fin 2) * 128 ≤ (i 1).val ∧ (i 1).val < win2_1.index ⟨159, last_lt⟩ (1 : Fin 2) * 128 + 128; rw [e1]; omega

/-- The same for the second accumulator. -/
theorem cover_2 (i : S1x128.Idx) :
    ∃ t : Fin cfg2.N, (cfg2.win 2).flush t = true ∧ i ∈ ((cfg2.win 2).blk t).view.set := by
  have hi0 : (i 0).val < 1 := (i 0).isLt
  have hi1 : (i 1).val < 128 := (i 1).isLt
  obtain ⟨-, -, -, -, e0, e1⟩ := idx_facts ⟨159, last_lt⟩
  refine ⟨⟨159, last_lt⟩, (flush2_2 _).mpr rfl, ?_⟩
  rw [mem_blk_2]
  intro a
  match a with
  | ⟨0, _⟩ => show win2_2.index ⟨159, last_lt⟩ (0 : Fin 2) * 1 ≤ (i 0).val ∧ (i 0).val < win2_2.index ⟨159, last_lt⟩ (0 : Fin 2) * 1 + 1; rw [e0]; omega
  | ⟨1, _⟩ => show win2_2.index ⟨159, last_lt⟩ (1 : Fin 2) * 128 ≤ (i 1).val ∧ (i 1).val < win2_2.index ⟨159, last_lt⟩ (1 : Fin 2) * 128 + 128; rw [e1]; omega

/-- After the region the first accumulator array holds every column's sum. -/
theorem final2_1 (c : Dev nD) :
    (dat2 (F := Ideal) V c).arrAt 1 cfg2.N = fun k => colSum (V c main_arg1) (k 1) :=
  (dat2 (F := Ideal) V c).arrAt_eq_of_cover 1 (fun k => colSum (V c main_arg1) (k 1)) (flushed_eq_1 V c) cover_1

/-- After the region the second accumulator array holds every column's sum of squares. -/
theorem final2_2 (c : Dev nD) :
    (dat2 (F := Ideal) V c).arrAt 2 cfg2.N = fun k => colSumSq (V c main_arg1) (k 1) :=
  (dat2 (F := Ideal) V c).arrAt_eq_of_cover 2 (fun k => colSumSq (V c main_arg1) (k 1)) (flushed_eq_2 V c) cover_2

end Cert.EdgeStats

end
-- ==== Proof.EdgeApply.lean ====
/-
  The last region: the edge array normalised, rectified and added to itself.

  The region walks the 1600000 × 128 edge array in 160 blocks of 10000 rows. At every point its body reads
  the block `x` and four rows — the column means `μ`, the column variances `v`, the scale `g`, the shift
  `b`, each a 1 × 128 array read whole — and stores `x + max ((x - μ) · rsqrt (v + ε) · g + b, 0)`, every
  row against the same four rows. Row `r` of the array lies in block `r / 10000`, so the blocks tile the
  array and the output array ends holding that function of the arrays the region was entered with.
-/
import proofs.«108555_j3255585210595_1_alg».proof.Proof.Gen.KernelIdeal.Frame
import proofs.«108555_j3255585210595_1_alg».proof.Proof.Spec
import proofs.«108555_j3255585210595_1_alg».proof.Proof.Consts
import Idealize.ShloMosaic.Lib.Pipeline.Value
import Idealize.ShloMosaic.Lib.ValueIdx

noncomputable section

namespace Cert.EdgeApply

open Cert.KernelIdeal Cert.KernelIdeal.Gen Cert.Spec
open Idealize.ShloMosaic Idealize.ShloMosaic.ValueIdx Idealize.ShloMosaic.TcCoe Idealize.SL.Sem
open Idealize.ShloMosaic.Pipeline (Dat)

/-- The stabiliser under the inverse square root: the same float word in both programs, never evaluated. -/
abbrev EPS : EReal := Ideal.ofBits .f32 0x3727C5AC#32

theorem hz : (![0, 0] : Fin 2 → Nat) = fun _ => 0 := funext fun a => by fin_cases a <;> rfl

/-- A 1 × 128 row repeated along 10000 rows reads, at (p, q), the row's entry q. -/
theorem row_bcast (x : Vec Ideal S1x128 .f32) (h : S1x128.Broadcasts S10000x128) (p : Fin 10000) (q : Fin 128) :
    broadcastTo S10000x128 x h (ix2 p q) = x (ix2 0 q) :=
  broadcastTo_apply x h _ _ (fun a => by match a with | ⟨0, _⟩ => rfl | ⟨1, _⟩ => rfl)

/-- The body's one store, at entry (p, q) of the block: the block's entry plus the rectified normalised entry. -/
theorem pay_apply (x0 : Vec Ideal S10000x128 .f32) (x1 x2 x3 x4 : Vec Ideal S1x128 .f32) (p : Fin 10000) (q : Fin 128) :
    k3_pay1 (F := Ideal) x0 x1 x2 x3 x4 (ix2 p q)
      = x0 (ix2 p q) + max ((x0 (ix2 p q) - x1 (ix2 0 q)) * Ideal.rsqrt (x2 (ix2 0 q) + EPS) * x3 (ix2 0 q) + x4 (ix2 0 q)) 0 := by
  unfold k3_pay1
  simp only [shapeCast_self]
  show x0 (ix2 p q) + max ((x0 (ix2 p q) - broadcastTo S10000x128 x1 _ (ix2 p q))
      * broadcastTo S10000x128 (rsqrt (addf x2 (broadcast S1x128 (FloatOps.ofBits (F := Ideal) .f32 0x3727C5AC#32)))) _ (ix2 p q)
      * broadcastTo S10000x128 x3 _ (ix2 p q) + broadcastTo S10000x128 x4 _ (ix2 p q)) (Ideal.ofBits .f32 0x00000000#32) = _
  rw [row_bcast, row_bcast, row_bcast, row_bcast, Cert.Consts.ofBits_zero]
  rfl

variable (V : (c : Dev nD) → (b : Ref sig .tc) → Buf (Elt Ideal) ((c : Thread nD τ).loc b))

/-- What the output array ends holding: the edge array as entered, normalised with the four rows as entered. -/
abbrev G (c : Dev nD) : Mat 1600000 128 :=
  normRelu EPS (V c main_arg1) (V c main_arg1) (fun j => V c main_v32 (ix2 0 j)) (fun j => V c main_v36 (ix2 0 j))
    (fun j => V c main_v37 (ix2 0 j)) (fun j => V c main_v38 (ix2 0 j))

/-- The block indices over the grid: the edge block and the output block are the point's, the four rows stay put. -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem point_lt (t : Fin cfg3.N) : t.val < 160 := lt_of_lt_of_eq t.isLt (show cfg3.N = 160 from N_3)

/-- Row p of block t is row 10000 · t + p of the array. -/
def rowOf (t : Fin cfg3.N) (p : Fin 10000) : Fin 1600000 :=
  ⟨t.val * 10000 + p.val, by have := point_lt t; have := p.isLt; omega⟩

/-- The edge block at point t, entry (p, q): the edge array at (10000 · t + p, q). -/
theorem blk0 (c : Dev nD) (t : Fin cfg3.N) (p : Fin 10000) (q : Fin 128) :
    iblk3 V c 0 t (ix2 p q) = V c main_arg1 (ix2 (rowOf t p) q) := by
  obtain ⟨e0, e1, -⟩ := idx_facts t
  show V c main_arg1 (((cfg3.win 0).blk t).view.emb (ix2 p q)) = _
  refine congrArg (V c main_arg1) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 128 + 1 * q.val = q.val; rw [e1]; omega

/-- The output block's entry (p, q) sits at (10000 · t + p, q) of the output array. -/
theorem emb5 (t : Fin cfg3.N) (p : Fin 10000) (q : Fin 128) :
    ((cfg3.win 5).blk t).view.emb (ix2 p q) = ix2 (rowOf t p) q := by
  obtain ⟨-, -, e0, e1, -⟩ := idx_facts t
  refine funext fun a => Fin.ext ?_
  match a with
  | ⟨0, _⟩ => show win3_5.index t (0 : Fin 2) * 10000 + 1 * p.val = t.val * 10000 + p.val; rw [e0]; omega
  | ⟨1, _⟩ => show win3_5.index t (1 : Fin 2) * 128 + 1 * q.val = q.val; rw [e1]; omega

/-- Each of the four rows is read whole at every point. -/
theorem blk1 (c : Dev nD) (t : Fin cfg3.N) (q : Fin 128) : iblk3 V c 1 t (ix2 0 q) = V c main_v32 (ix2 0 q) := by
  obtain ⟨-, -, -, -, e0, e1, -⟩ := idx_facts t
  show V c main_v32 (((cfg3.win 1).blk t).view.emb (ix2 0 q)) = _
  refine congrArg (V c main_v32) (funext fun a => Fin.ext ?_)
  match a with
  | ⟨0, _⟩ => show win3_1.index t (0 : Fin 2) * 1 + 1 * 0 = 0; rw [e0]
  | ⟨1, _⟩ => show win3_1.index t (1 : Fin 2) * 128 + 1 * q.val = q.val; rw [e1]; omega
theorem blk2 (c : Dev nD) (t : Fin cfg3.N) (q : Fin 128) : iblk3 V c 2 t (ix2 0 q) = V c main_v36 (ix2 0 q) := by
  obtain ⟨-, -, -, -, -, -, e0, e1, -⟩ := idx_facts t
  show V c main_v36 (((cfg3.win 2).blk t).view.emb (ix2 0 q)) = _
  refine congrArg (V c main_v36) (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega
theorem blk3 (c : Dev nD) (t : Fin cfg3.N) (q : Fin 128) : iblk3 V c 3 t (ix2 0 q) = V c main_v37 (ix2 0 q) := by
  obtain ⟨-, -, -, -, -, -, -, -, e0, e1, -⟩ := idx_facts t
  show V c main_v37 (((cfg3.win 3).blk t).view.emb (ix2 0 q)) = _
  refine congrArg (V c main_v37) (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega
theorem blk4 (c : Dev nD) (t : Fin cfg3.N) (q : Fin 128) : iblk3 V c 4 t (ix2 0 q) = V c main_v38 (ix2 0 q) := by
  obtain ⟨-, -, -, -, -, -, -, -, -, -, e0, e1⟩ := idx_facts t
  show V c main_v38 (((cfg3.win 4).blk t).view.emb (ix2 0 q)) = _
  refine congrArg (V c main_v38) (funext fun a => Fin.ext ?_)
  match a with
  | ⟨0, _⟩ => show win3_4.index t (0 : Fin 2) * 1 + 1 * 0 = 0; rw [e0]
  | ⟨1, _⟩ => show win3_4.index t (1 : Fin 2) * 128 + 1 * q.val = q.val; rw [e1]; omega

/-- What point t writes back is block t of `G`. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S10000x128) hz, View.ld_unit_zero (S := S1x128) hz]
  funext y
  obtain ⟨p, q, rfl⟩ : ∃ (p : Fin 10000) (q : Fin 128), y = ix2 p q := ⟨y 0, y 1, eq_ix2 y⟩
  show k3_pay1 (F := Ideal) (iblk3 V c 0 t) (iblk3 V c 1 t) (iblk3 V c 2 t) (iblk3 V c 3 t) (iblk3 V c 4 t) (ix2 p q)
    = G V c (((cfg3.win 5).blk t).view.emb (ix2 p q))
  refine (pay_apply (iblk3 V c 0 t) (iblk3 V c 1 t) (iblk3 V c 2 t) (iblk3 V c 3 t) (iblk3 V c 4 t) p q).trans ?_
  rw [emb5 t p q, blk0 V c t p q, blk1 V c t q, blk2 V c t q, blk3 V c t q, blk4 V c t q]
  rfl

/-- An index of the array is in point t's block iff each coordinate is in the block's range on its axis. -/
theorem mem_blk (t : Fin cfg3.N) (i : S1600000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v39).slice (win3_5.rect t)).set ↔ _
  rw [View.set_slice_whole, Rect.mem_set_unit]
  exact Iff.rfl

/-- Row r of the array lies in block r / 10000. -/
theorem cover (i : S1600000x128.Idx) :
    ∃ t : Fin cfg3.N, (cfg3.win 5).flush t = true ∧ i ∈ ((cfg3.win 5).blk t).view.set := by
  have hi0 : (i 0).val < 1600000 := (i 0).isLt
  have hi1 : (i 1).val < 128 := (i 1).isLt
  have hN : cfg3.N = 160 := N_3
  let t : Fin cfg3.N := ⟨(i 0).val / 10000, by rw [hN]; omega⟩
  obtain ⟨-, -, e0, e1, -⟩ := idx_facts t
  have et : t.val = (i 0).val / 10000 := rfl
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; rw [e0, et]; omega
  | ⟨1, _⟩ => show win3_5.index t (1 : Fin 2) * 128 ≤ (i 1).val ∧ (i 1).val < win3_5.index t (1 : Fin 2) * 128 + 128; rw [e1]; omega

/-- The output array after the region: the normalised edge array. -/
theorem final3 (c : Dev nD) : (dat3 (F := Ideal) V c).arrAt 5 cfg3.N = G V c :=
  (dat3 (F := Ideal) V c).arrAt_eq_of_cover 5 (G V c) (fun t _ => flushed_eq V c t) cover

end Cert.EdgeApply

end
-- ==== Proof.KernelValue.lean ====
/-
  The idealized kernel program's two results, as the specification.

  The last boundary's contents of the node result are what the second region left in its output array, and
  those of the edge result what the fourth region left. Each of these regions normalises an array with a
  row of column means and a row of column variances that host operations computed from the sums the region
  before it accumulated: mean = sum / n, variance = sum of squares / n − mean². Putting the regions'
  arrays and the host operations' results together, the node result is the linear layer's output normalised
  with its own column statistics (the variance in its moments spelling), rectified, plus the features; the
  edge result is the same of the edge array, plus the edge array.
-/
import proofs.«108555_j3255585210595_1_alg».proof.Proof.KernelFold
import proofs.«108555_j3255585210595_1_alg».proof.Proof.NodeLinear
import proofs.«108555_j3255585210595_1_alg».proof.Proof.NodeApply
import proofs.«108555_j3255585210595_1_alg».proof.Proof.EdgeStats
import proofs.«108555_j3255585210595_1_alg».proof.Proof.EdgeApply

noncomputable section

namespace Cert.KernelValue

open Cert.KernelIdeal Cert.KernelIdeal.Gen Cert.Spec Cert.KernelFold
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The stabiliser and the two row counts, as the float words both programs spell. -/
abbrev EPS : EReal := Ideal.ofBits .f32 0x3727C5AC#32
abbrev N1 : EReal := Ideal.ofBits .f32 0x47C35000#32
abbrev N2 : EReal := Ideal.ofBits .f32 0x49C35000#32

/-- The linear layer's output: the aggregated features times the transposed weights, plus the bias. -/
abbrev hl : Mat 100000 128 :=
  linear (Cert.Prologue.aggregate (F := Ideal) (m ((c.tc : Thread nD τ).loc main_arg0)) (m ((c.tc : Thread nD τ).loc main_arg2))
    (m ((c.tc : Thread nD τ).loc main_arg3))) (m ((c.tc : Thread nD τ).loc main_arg4)) (m ((c.tc : Thread nD τ).loc main_arg5))

/-- The edge result: the edge array normalised with its own column statistics, rectified, plus itself. -/
theorem edge_value :
    W7 m ρ c (Proc.devRef .tc main_v39)
      = normRelu EPS (m ((c.tc : Thread nD τ).loc main_arg1)) (m ((c.tc : Thread nD τ).loc main_arg1))
          (mean N2 (m ((c.tc : Thread nD τ).loc main_arg1))) (varMoments N2 (m ((c.tc : Thread nD τ).loc main_arg1)))
          (fun j => m ((c.tc : Thread nD τ).loc main_arg8) (ix1 j)) (fun j => m ((c.tc : Thread nD τ).loc main_arg9) (ix1 j)) := by
  have hmean : (fun j : Fin 128 => V6 m ρ c main_v32 (ix2 0 j)) = mean N2 (m ((c.tc : Thread nD τ).loc main_arg1)) :=
    funext fun j => by
      rw [e3_mean m ρ c j, Cert.EdgeStats.final2_1 (V4 m ρ) c, e2_e m ρ c]; rfl
  have hvar : (fun j : Fin 128 => V6 m ρ c main_v36 (ix2 0 j)) = varMoments N2 (m ((c.tc : Thread nD τ).loc main_arg1)) :=
    funext fun j => by
      rw [e3_var m ρ c j, Cert.EdgeStats.final2_2 (V4 m ρ) c, Cert.EdgeStats.final2_1 (V4 m ρ) c, e2_e m ρ c]; rfl
  rw [x_edge m ρ c, Cert.EdgeApply.final3 (V6 m ρ) c]
  show normRelu _ (V6 m ρ c main_arg1) (V6 m ρ c main_arg1) (fun j => V6 m ρ c main_v32 (ix2 0 j)) (fun j => V6 m ρ c main_v36 (ix2 0 j))
    (fun j => V6 m ρ c main_v37 (ix2 0 j)) (fun j => V6 m ρ c main_v38 (ix2 0 j)) = _
  rw [hmean, hvar, e3_e m ρ c, funext (e3_g m ρ c), funext (e3_b m ρ c)]

/-- The node result: the linear layer's output normalised with its own column statistics, rectified, plus the features. -/
theorem node_value :
    W7 m ρ c (Proc.devRef .tc main_v29)
      = normRelu EPS (hl m c) (m ((c.tc : Thread nD τ).loc main_arg0)) (mean N1 (hl m c)) (varMoments N1 (hl m c))
          (fun j => m ((c.tc : Thread nD τ).loc main_arg6) (ix1 j)) (fun j => m ((c.tc : Thread nD τ).loc main_arg7) (ix1 j)) := by
  have hbias : (fun k : (⟨1, ![128]⟩ : Shape).Idx => V1 m ρ c main_v19 (ix2 0 (k 0))) = m ((c.tc : Thread nD τ).loc main_arg5) :=
    funext fun k => by rw [e0_bias m ρ c (k 0)]; exact congrArg _ (eq_ix1 k).symm
  have hlin : (dat0 (F := Ideal) (V1 m ρ) c).arrAt 3 cfg0.N = hl m c := by
    rw [Cert.NodeLinear.final0_3 (V1 m ρ) c, e0_agg m ρ c, e0_W m ρ c, hbias]
  have hsum : (dat0 (F := Ideal) (V1 m ρ) c).arrAt 4 cfg0.N = fun k => colSum (hl m c) (k 1) := by
    rw [Cert.NodeLinear.final0_4 (V1 m ρ) c, e0_agg m ρ c, e0_W m ρ c, hbias]
  have hsq : (dat0 (F := Ideal) (V1 m ρ) c).arrAt 5 cfg0.N = fun k => colSumSq (hl m c) (k 1) := by
    rw [Cert.NodeLinear.final0_5 (V1 m ρ) c, e0_agg m ρ c, e0_W m ρ c, hbias]
  have hmean : (fun j : Fin 128 => V3 m ρ c main_v22 (ix2 0 j)) = mean N1 (hl m c) :=
    funext fun j => by rw [e1_mean m ρ c j, hsum]; rfl
  have hvar : (fun j : Fin 128 => V3 m ρ c main_v26 (ix2 0 j)) = varMoments N1 (hl m c) :=
    funext fun j => by rw [e1_var m ρ c j, hsq, hsum]; rfl
  rw [x_node m ρ c, Cert.NodeApply.final1 (V3 m ρ) c]
  show normRelu _ (V3 m ρ c main_v20_0) (V3 m ρ c main_arg0) (fun j => V3 m ρ c main_v22 (ix2 0 j)) (fun j => V3 m ρ c main_v26 (ix2 0 j))
    (fun j => V3 m ρ c main_v27 (ix2 0 j)) (fun j => V3 m ρ c main_v28 (ix2 0 j)) = _
  rw [hmean, hvar, e1_hlin m ρ c, hlin, e1_feat m ρ c, funext (e1_g m ρ c), funext (e1_b m ρ c)]

end Cert.KernelValue

end
-- ==== Proof.RefStages.lean ====
/-
  The reference's two results, read off its host program one operation at a time and restated through the
  specification.

  The reference first averages every node's in-neighbours' feature rows (the shared aggregation), applies the
  linear layer, and then treats the node array and the edge array alike: the column sums divided by the number
  of rows give the column means; the sums of the squared deviations from those means, divided by the number of
  rows, give the variances; every entry has its column's mean subtracted, is multiplied by the inverse square
  root of the variance plus the stabiliser, scaled and shifted column by column, compared with zero, and added
  to the residual. Every row-vector is spread over the rows by two broadcasts, so an entry in column \`j\` reads
  the vector at \`j\`; the sums start from the zero word, which denotes \`0\`.
-/
import proofs.«108555_j3255585210595_1_alg».proof.Proof.Gen.ReferenceIdeal.Read
import proofs.«108555_j3255585210595_1_alg».proof.Proof.Spec
import proofs.«108555_j3255585210595_1_alg».proof.Proof.Prologue
import proofs.«108555_j3255585210595_1_alg».proof.Proof.Consts
import Idealize.ShloMosaic.Lib.ValueIdx
import Idealize.ShloMosaic.PureOps.Ideal

noncomputable section

open scoped BigOperators

namespace Cert.RefStages

open Cert.ReferenceIdeal Cert.ReferenceIdeal.Read Cert.Spec Idealize.ShloMosaic Idealize.ShloMosaic.ValueIdx

/-- The stabiliser under the inverse square root (the same word in both programs). -/
abbrev EPS : EReal := Ideal.ofBits .f32 0x3727C5AC#32
/-- The number of nodes, as the word the programs divide by. -/
abbrev N1 : EReal := Ideal.ofBits .f32 0x47C35000#32
/-- The number of edges, as the word the programs divide by. -/
abbrev N2 : EReal := Ideal.ofBits .f32 0x49C35000#32

/-- The linear layer's output: the aggregated features times the transposed weights, plus the bias. -/
def hlin (x0 : FVec Ideal S100000x128 .f32) (x2 x3 : IVec S1600000 32) (x4 : FVec Ideal S128x128 .f32)
    (x5 : FVec Ideal S128 .f32) : Mat 100000 128 :=
  linear (Cert.Prologue.aggregate (F := Ideal) x0 x2 x3) x4 x5

/-! ## The node branch -/

section Node

variable (x0 : FVec Ideal S100000x128 .f32) (x2 x3 : IVec S1600000 32) (x4 : FVec Ideal S128x128 .f32)
  (x5 x6 x7 : FVec Ideal S128 .f32)

/-- The quotient the reference feeds the linear layer is the shared aggregation. -/
theorem agg_eq : val_main_v18 (F := Ideal) x0 x2 x3 = Cert.Prologue.aggregate (F := Ideal) x0 x2 x3 := rfl

/-- The bias, spread over the rows, read at \`(i, n)\`. -/
theorem bias_at (i : Fin 100000) (n : Fin 128) : val_main_v22 (F := Ideal) x5 (ix2 i n) = x5 (ix1 n) := by
  rw [val_main_v22_apply, val_main_v21_apply]
  exact congrArg x5 (funext fun a => Fin.ext (by match a with | ⟨0, _⟩ => rfl))

/-- The contraction with the transposed weights plus the bias is the linear layer. -/
theorem stage23_eq (i : Fin 100000) (n : Fin 128) :
    val_main_v23 (F := Ideal) x0 x2 x3 x4 x5 (ix2 i n) = hlin x0 x2 x3 x4 x5 (ix2 i n) := by
  rw [val_main_v23_apply, val_main_v20_apply, bias_at, hlin, linear_apply, ← agg_eq, Ideal.addf_def]
  refine congrArg (· + x5 (ix1 n)) (Finset.sum_congr rfl fun k _ => ?_)
  rw [val_main_v19_apply]
  refine congrArg₂ (· * ·) (congrArg _ ?_) (congrArg x4 ?_)
  · exact funext fun a => Fin.ext (by match a with | ⟨0, _⟩ => rfl | ⟨1, _⟩ => rfl)
  · exact funext fun a => Fin.ext (by match a with | ⟨0, _⟩ => rfl | ⟨1, _⟩ => rfl)

/-- The sum down a column starts from the zero word, which denotes \`0\`. -/
theorem zero4 (q : S_.Idx) : val_main_cst_4 (F := Ideal) q = 0 := Cert.Consts.ofBits_zero
theorem zero6 (q : S_.Idx) : val_main_cst_6 (F := Ideal) q = 0 := Cert.Consts.ofBits_zero

/-- The divisor of the column sums is the number of nodes. -/
theorem n25_at (q : S128.Idx) : val_main_v25 (F := Ideal) q = N1 := by
  rw [val_main_v25_apply]; rfl
theorem n32_at (q : S128.Idx) : val_main_v32 (F := Ideal) q = N1 := by
  rw [val_main_v32_apply]; rfl

/-- The column sums of the linear layer's output divided by the number of nodes are the column means. -/
theorem mean_eq (j : Fin 128) :
    val_main_v26 (F := Ideal) x0 x2 x3 x4 x5 (ix1 j) = mean N1 (hlin x0 x2 x3 x4 x5) j := by
  rw [val_main_v26_apply, val_main_v24_apply, n25_at, zero4, zero_add, Ideal.hostDivf_def, mean, colSum]
  refine congrArg (fun s => Ideal.div s N1) (Finset.sum_congr rfl fun k _ => ?_)
  refine (congrArg _ ?_).trans (stage23_eq x0 x2 x3 x4 x5 k j)
  exact funext fun a => Fin.ext (by match a with | ⟨0, _⟩ => rfl | ⟨1, _⟩ => rfl)

/-- The column means, spread over the rows for the squared deviations, read at \`(i, j)\`. -/
theorem mean28_at (i : Fin 100000) (j : Fin 128) :
    val_main_v28 (F := Ideal) x0 x2 x3 x4 x5 (ix2 i j) = val_main_v26 (F := Ideal) x0 x2 x3 x4 x5 (ix1 j) := by
  rw [val_main_v28_apply, val_main_v27_apply]
  exact congrArg _ (funext fun a => Fin.ext (by match a with | ⟨0, _⟩ => rfl))

/-- The column means, spread over the rows for the normalisation, read at \`(i, j)\`. -/
theorem mean35_at (i : Fin 100000) (j : Fin 128) :
    val_main_v35 (F := Ideal) x0 x2 x3 x4 x5 (ix2 i j) = val_main_v26 (F := Ideal) x0 x2 x3 x4 x5 (ix1 j) := by
  rw [val_main_v35_apply, val_main_v34_apply]
  exact congrArg _ (funext fun a => Fin.ext (by match a with | ⟨0, _⟩ => rfl))

/-- The sums of the squared deviations divided by the number of nodes are the centred variances. -/
theorem var_eq (j : Fin 128) :
    val_main_v33 (F := Ideal) x0 x2 x3 x4 x5 (ix1 j) = varCentered N1 (hlin x0 x2 x3 x4 x5) j := by
  rw [val_main_v33_apply, val_main_v31_apply, n32_at, zero6, zero_add, Ideal.hostDivf_def, varCentered]
  refine congrArg (fun s => Ideal.div s N1) (Finset.sum_congr rfl fun k _ => ?_)
  have hk : idx_main_v31 (ix1 j) k = ix2 k j :=
    funext fun a => Fin.ext (by match a with | ⟨0, _⟩ => rfl | ⟨1, _⟩ => rfl)
  rw [hk, val_main_v30_apply, val_main_v29_apply, mean28_at, stage23_eq, mean_eq]
  rfl

/-- The stabiliser, spread over the columns. -/
theorem eps37_at (q : S128.Idx) : val_main_v37 (F := Ideal) q = EPS := by
  rw [val_main_v37_apply]; rfl

/-- The inverse square roots, spread over the rows, read at \`(i, j)\`. -/
theorem rsqrt41_at (i : Fin 100000) (j : Fin 128) :
    val_main_v41 (F := Ideal) x0 x2 x3 x4 x5 (ix2 i j) = val_main_v39 (F := Ideal) x0 x2 x3 x4 x5 (ix1 j) := by
  rw [val_main_v41_apply, val_main_v40_apply]
  exact congrArg _ (funext fun a => Fin.ext (by match a with | ⟨0, _⟩ => rfl))

/-- The scale, spread over the rows, read at \`(i, j)\`. -/
theorem scale_at (i : Fin 100000) (j : Fin 128) : val_main_v44 (F := Ideal) x6 (ix2 i j) = x6 (ix1 j) := by
  rw [val_main_v44_apply, val_main_v43_apply]
  exact congrArg x6 (funext fun a => Fin.ext (by match a with | ⟨0, _⟩ => rfl))

/-- The shift, spread over the rows, read at \`(i, j)\`. -/
theorem shift_at (i : Fin 100000) (j : Fin 128) : val_main_v47 (F := Ideal) x7 (ix2 i j) = x7 (ix1 j) := by
  rw [val_main_v47_apply, val_main_v46_apply]
  exact congrArg x7 (funext fun a => Fin.ext (by match a with | ⟨0, _⟩ => rfl))

/-- The array the rectifier compares with is zero everywhere. -/
theorem relu0_at (p : S100000x128.Idx) : val_main_call0_v0 (F := Ideal) p = 0 := by
  rw [val_main_call0_v0_apply]; exact Cert.Consts.ofBits_zero

/-- The reference's node result is the specification: the linear layer's output normalised with its column means
    and centred variances, scaled, shifted, rectified, plus the node's own features. -/
theorem ref_out0 (i : Fin 100000) (j : Fin 128) :
    val_main_v76 (F := Ideal) x0 x2 x3 x4 x5 x6 x7 (ix2 i j)
      = normRelu EPS (hlin x0 x2 x3 x4 x5) x0 (mean N1 (hlin x0 x2 x3 x4 x5))
          (varCentered N1 (hlin x0 x2 x3 x4 x5)) (fun j => x6 (ix1 j)) (fun j => x7 (ix1 j)) (ix2 i j) := by
  rw [normRelu_apply, val_main_v76_apply, val_main_v49_apply, relu0_at, val_main_v48_apply, shift_at,
    val_main_v45_apply, scale_at, val_main_v42_apply, rsqrt41_at, val_main_v36_apply, mean35_at,
    val_main_v39_apply, val_main_v38_apply, eps37_at, stage23_eq, mean_eq, var_eq]
  rfl

end Node

/-! ## The edge branch -/

section Edge

variable (x1 : FVec Ideal S1600000x128 .f32) (x8 x9 : FVec Ideal S128 .f32)

theorem zero9 (q : S_.Idx) : val_main_cst_9 (F := Ideal) q = 0 := Cert.Consts.ofBits_zero
theorem zero11 (q : S_.Idx) : val_main_cst_11 (F := Ideal) q = 0 := Cert.Consts.ofBits_zero

/-- The divisor of the edge array's column sums is the number of edges. -/
theorem n51_at (q : S128.Idx) : val_main_v51 (F := Ideal) q = N2 := by
  rw [val_main_v51_apply]; rfl
theorem n58_at (q : S128.Idx) : val_main_v58 (F := Ideal) q = N2 := by
  rw [val_main_v58_apply]; rfl

/-- The edge array's column sums divided by the number of edges are its column means. -/
theorem emean_eq (j : Fin 128) :
    val_main_v52 (F := Ideal) x1 (ix1 j) = mean (R := 1600000) (C := 128) N2 x1 j := by
  rw [val_main_v52_apply, val_main_v50_apply, n51_at, zero9, zero_add, Ideal.hostDivf_def, mean, colSum]
  refine congrArg (fun s => Ideal.div s N2) (Finset.sum_congr rfl fun k _ => congrArg x1 ?_)
  exact funext fun a => Fin.ext (by match a with | ⟨0, _⟩ => rfl | ⟨1, _⟩ => rfl)

/-- The edge column means, spread over the rows for the squared deviations, read at \`(i, j)\`. -/
theorem emean54_at (i : Fin 1600000) (j : Fin 128) :
    val_main_v54 (F := Ideal) x1 (ix2 i j) = val_main_v52 (F := Ideal) x1 (ix1 j) := by
  rw [val_main_v54_apply, val_main_v53_apply]
  exact congrArg _ (funext fun a => Fin.ext (by match a with | ⟨0, _⟩ => rfl))

/-- The edge column means, spread over the rows for the normalisation, read at \`(i, j)\`. -/
theorem emean61_at (i : Fin 1600000) (j : Fin 128) :
    val_main_v61 (F := Ideal) x1 (ix2 i j) = val_main_v52 (F := Ideal) x1 (ix1 j) := by
  rw [val_main_v61_apply, val_main_v60_apply]
  exact congrArg _ (funext fun a => Fin.ext (by match a with | ⟨0, _⟩ => rfl))

/-- The edge array's sums of squared deviations divided by the number of edges are its centred variances. -/
theorem evar_eq (j : Fin 128) :
    val_main_v59 (F := Ideal) x1 (ix1 j) = varCentered (R := 1600000) (C := 128) N2 x1 j := by
  rw [val_main_v59_apply, val_main_v57_apply, n58_at, zero11, zero_add, Ideal.hostDivf_def, varCentered]
  refine congrArg (fun s => Ideal.div s N2) (Finset.sum_congr rfl fun k _ => ?_)
  have hk : idx_main_v57 (ix1 j) k = ix2 k j :=
    funext fun a => Fin.ext (by match a with | ⟨0, _⟩ => rfl | ⟨1, _⟩ => rfl)
  rw [hk, val_main_v56_apply, val_main_v55_apply, emean54_at, emean_eq]
  rfl

/-- The stabiliser, spread over the columns. -/
theorem eps63_at (q : S128.Idx) : val_main_v63 (F := Ideal) q = EPS := by
  rw [val_main_v63_apply]; rfl

/-- The edge inverse square roots, spread over the rows, read at \`(i, j)\`. -/
theorem rsqrt67_at (i : Fin 1600000) (j : Fin 128) :
    val_main_v67 (F := Ideal) x1 (ix2 i j) = val_main_v65 (F := Ideal) x1 (ix1 j) := by
  rw [val_main_v67_apply, val_main_v66_apply]
  exact congrArg _ (funext fun a => Fin.ext (by match a with | ⟨0, _⟩ => rfl))

/-- The edge scale, spread over the rows, read at \`(i, j)\`. -/
theorem escale_at (i : Fin 1600000) (j : Fin 128) : val_main_v70 (F := Ideal) x8 (ix2 i j) = x8 (ix1 j) := by
  rw [val_main_v70_apply, val_main_v69_apply]
  exact congrArg x8 (funext fun a => Fin.ext (by match a with | ⟨0, _⟩ => rfl))

/-- The edge shift, spread over the rows, read at \`(i, j)\`. -/
theorem eshift_at (i : Fin 1600000) (j : Fin 128) : val_main_v73 (F := Ideal) x9 (ix2 i j) = x9 (ix1 j) := by
  rw [val_main_v73_apply, val_main_v72_apply]
  exact congrArg x9 (funext fun a => Fin.ext (by match a with | ⟨0, _⟩ => rfl))

/-- The array the edge rectifier compares with is zero everywhere. -/
theorem relu1_at (p : S1600000x128.Idx) : val_main_call1_v0 (F := Ideal) p = 0 := by
  rw [val_main_call1_v0_apply]; exact Cert.Consts.ofBits_zero

/-- The reference's edge result is the specification: the edge array normalised with its own column means and
    centred variances, scaled, shifted, rectified, plus the edge array itself. -/
theorem ref_out1 (i : Fin 1600000) (j : Fin 128) :
    val_main_v77 (F := Ideal) x1 x8 x9 (ix2 i j)
      = normRelu EPS x1 x1 (mean N2 x1) (varCentered N2 x1) (fun j => x8 (ix1 j)) (fun j => x9 (ix1 j)) (ix2 i j) := by
  rw [normRelu_apply, val_main_v77_apply, val_main_v75_apply, relu1_at, val_main_v74_apply, eshift_at,
    val_main_v71_apply, escale_at, val_main_v68_apply, rsqrt67_at, val_main_v62_apply, emean61_at,
    val_main_v65_apply, val_main_v64_apply, eps63_at, emean_eq, evar_eq]
  rfl

end Edge

end Cert.RefStages

end
-- ==== Proof.LibVariance.lean ====
/-
  The variance of a finite family of real numbers, written two ways over the extended reals, and the
  closure of "is a real number" under the arithmetic used around it.

  For real numbers `f 0, …, f (R-1)` with `R > 0`, sum `s = ∑ f i`, mean `m = s / R` and sum of squares
  `q = ∑ (f i)²`,

      ∑ (f i - m)² = q - 2 m s + R m² = q - R m²,          so        (∑ (f i - m)²) / R = q / R - m².

  The left side is the mean squared deviation, the right side the second moment minus the squared mean.
  Over the extended reals the same identity holds as soon as every entry is (the image of) a real number
  and the divisor is the number of entries: then every sum, product, difference and quotient that occurs is
  again the image of a real number, and the coercion `ℝ → EReal` commutes with each of these operations.
  With an infinite entry the two sides differ (one side meets `⊤ - ⊤`), so the hypothesis is needed.

  The quotient here is the total division `Ideal.div x y`, which for a nonzero real `y` is `x * (1 / y)`, and
  for `y = ⊤` is `x * 0`.

  The second half of the file collects the closure lemmas: each says that an expression is the image of a
  real number when its parts are.
-/
import Idealize.ShloMosaic.PureOps.Ideal
import Mathlib.Tactic.Ring
import Mathlib.Tactic.FieldSimp
import Mathlib.Algebra.BigOperators.Ring.Finset

noncomputable section

open scoped BigOperators

namespace LibVariance

open Idealize.ShloMosaic

/-! ### The coercion and finite sums -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The identity over the reals -/

/-- Over the reals: the second moment minus the squared mean is the mean squared deviation. Division by
    the count `R` is written as multiplication by `1 / R`. -/
theorem real_var_identity {R : ℕ} (hR : 0 < R) (f : Fin R → ℝ) :
    (∑ i, f i * f i) * (1 / (R : ℝ)) - ((∑ i, f i) * (1 / (R : ℝ))) * ((∑ i, f i) * (1 / (R : ℝ)))
      = (∑ i, (f i - (∑ i, f i) * (1 / (R : ℝ))) * (f i - (∑ i, f i) * (1 / (R : ℝ)))) * (1 / (R : ℝ)) := by
  have hn : (R : ℝ) ≠ 0 := by exact_mod_cast hR.ne'
  generalize hs : (∑ i, f i) = s
  generalize hm : s * (1 / (R : ℝ)) = m
  have hexp : ∀ i, (f i - m) * (f i - m) = f i * f i - 2 * m * f i + m * m := fun i => by ring
  have h1 : (∑ i, (f i - m) * (f i - m)) = (∑ i, f i * f i) - 2 * m * s + (R : ℝ) * (m * m) := by
    simp only [hexp]
    rw [Finset.sum_add_distrib, Finset.sum_sub_distrib, ← Finset.mul_sum, hs, Finset.sum_const,
      Finset.card_univ, Fintype.card_fin, nsmul_eq_mul]
  rw [h1, ← hm]
  field_simp
  ring

/-! ### The identity over the extended reals -/

/-- Over the extended reals, for a family of `R > 0` real entries and division by `R`: the mean of the squares
    minus the square of the mean equals the mean of the squared deviations from the mean. -/
theorem var_moments_eq_centered {R : ℕ} (hR : 0 < R) (x : Fin R → EReal)
    (hx : ∀ i, ∃ r : ℝ, x i = (r : EReal)) :
    Ideal.div (∑ i, x i * x i) ((R : ℝ) : EReal)
        - Ideal.div (∑ i, x i) ((R : ℝ) : EReal) * Ideal.div (∑ i, x i) ((R : ℝ) : EReal)
      = Ideal.div (∑ i, (x i - Ideal.div (∑ i, x i) ((R : ℝ) : EReal))
            * (x i - Ideal.div (∑ i, x i) ((R : ℝ) : EReal))) ((R : ℝ) : EReal) := by
  choose f hf using hx
  have hn : (R : ℝ) ≠ 0 := by exact_mod_cast hR.ne'
  simp only [hf, Ideal.div_coe hn, ← EReal.coe_mul, ← EReal.coe_sub, ← coe_sum]
  exact congrArg Real.toEReal (real_var_identity hR f)

/-! ### Closure of "is a real number" -/

/-- The image of a real number is the image of a real number. -/
theorem real_coe (a : ℝ) : ∃ r : ℝ, (a : EReal) = (r : EReal) := ⟨a, rfl⟩

/-- Zero is a real number. -/
theorem real_zero : ∃ r : ℝ, (0 : EReal) = (r : EReal) := ⟨0, EReal.coe_zero.symm⟩

/-- One is a real number. -/
theorem real_one : ∃ r : ℝ, (1 : EReal) = (r : EReal) := ⟨1, EReal.coe_one.symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A difference of two real numbers is a real number. -/
theorem real_sub {a b : EReal} (ha : ∃ r : ℝ, a = (r : EReal)) (hb : ∃ r : ℝ, b = (r : EReal)) :
    ∃ r : ℝ, a - b = (r : EReal) := by
  obtain ⟨r, rfl⟩ := ha
  obtain ⟨s, rfl⟩ := hb
  exact ⟨r - s, (EReal.coe_sub r s).symm⟩

/-- A product of two real numbers is a real number. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The negative of a real number is a real number. -/
theorem real_neg {a : EReal} (ha : ∃ r : ℝ, a = (r : EReal)) : ∃ r : ℝ, -a = (r : EReal) := by
  obtain ⟨r, rfl⟩ := ha
  exact ⟨-r, (EReal.coe_neg r).symm⟩

/-- The larger of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A choice between two real numbers is a real number. -/
theorem real_ite {p : Prop} [Decidable p] {a b : EReal} (ha : ∃ r : ℝ, a = (r : EReal))
    (hb : ∃ r : ℝ, b = (r : EReal)) : ∃ r : ℝ, (if p then a else b) = (r : EReal) := by
  split
  · exact ha
  · exact hb

/-- A finite sum of real numbers is a real number. -/
theorem real_sum {ι : Type*} (s : Finset ι) (g : ι → EReal) (h : ∀ i ∈ s, ∃ r : ℝ, g i = (r : EReal)) :
    ∃ r : ℝ, (∑ i ∈ s, g i) = (r : EReal) := by
  classical
  induction s using Finset.induction_on with
  | empty => exact ⟨0, by simp⟩
  | insert a s ha ih =>
    rw [Finset.sum_insert ha]
    exact real_add (h a (Finset.mem_insert_self a s))
      (ih (fun i hi => h i (Finset.mem_insert_of_mem hi)))

/-- A sum of real numbers over a whole finite type is a real number. -/
theorem real_sum_univ {ι : Type*} [Fintype ι] (g : ι → EReal) (h : ∀ i, ∃ r : ℝ, g i = (r : EReal)) :
    ∃ r : ℝ, (∑ i, g i) = (r : EReal) :=
  real_sum Finset.univ g (fun i _ => h i)

/-- A real number divided by a nonzero real number is a real number. -/
theorem real_div_coe (a : ℝ) {y : ℝ} (hy : y ≠ 0) :
    ∃ r : ℝ, Ideal.div (a : EReal) (y : EReal) = (r : EReal) :=
  ⟨a * (1 / y), by rw [Ideal.div_coe hy, ← EReal.coe_mul]⟩

/-- A real number divided by an extended real that is at least one is a real number: a real divisor is
    nonzero, and division by `⊤` gives zero. -/
theorem real_div_of_one_le (a : ℝ) {y : EReal} (hy : 1 ≤ y) :
    ∃ r : ℝ, Ideal.div (a : EReal) y = (r : EReal) := by
  induction y using EReal.rec with
  | bot => exact absurd hy (not_le.2 (EReal.bot_lt_coe 1))
  | coe y =>
    have h1 : (1 : ℝ) ≤ y := by exact_mod_cast hy
    have hne : y ≠ 0 := by
      intro h0
      rw [h0] at h1
      exact absurd h1 (by norm_num)
    exact real_div_coe a hne
  | top =>
    exact ⟨0, by rw [Ideal.div, if_neg EReal.top_ne_zero, EReal.inv_top, mul_zero, EReal.coe_zero]⟩

/-- A real-valued dividend divided by a nonzero real number is a real number. -/
theorem real_div_coe' {x : EReal} (hx : ∃ r : ℝ, x = (r : EReal)) {y : ℝ} (hy : y ≠ 0) :
    ∃ r : ℝ, Ideal.div x (y : EReal) = (r : EReal) := by
  obtain ⟨a, rfl⟩ := hx
  exact real_div_coe a hy

/-- A real-valued dividend divided by an extended real that is at least one is a real number. -/
theorem real_div_of_one_le' {x : EReal} (hx : ∃ r : ℝ, x = (r : EReal)) {y : EReal} (hy : 1 ≤ y) :
    ∃ r : ℝ, Ideal.div x y = (r : EReal) := by
  obtain ⟨a, rfl⟩ := hx
  exact real_div_of_one_le a hy

end LibVariance

end
-- ==== Proof.SpecLaw.lean ====
/-
  Laws of the specification.

  (1) For a column of real numbers and `n` the number of rows, the variance through the moments,
      `(∑ i, (x i j)²) / n - (μ j)²`, equals the mean squared deviation `(∑ i, (x i j - μ j)²) / n`: expanding
      the square gives `∑ (x i j - μ)² = ∑ (x i j)² - 2 μ ∑ x i j + n μ²`, and `∑ x i j = n μ`. Over the extended
      reals this needs the entries to be real: an infinite entry makes one side `⊤ - ⊤`.
  (2) The linear layer `x · Wᵀ + b` of real arrays is a real array: each entry is a finite sum of products of
      real numbers plus a real number.
  (3) The normalise / rectify / residual step depends on the variance vector only through its values, so
      two variance vectors that agree entry by entry give the same result.
-/
import proofs.«108555_j3255585210595_1_alg».proof.Proof.Spec
import proofs.«108555_j3255585210595_1_alg».proof.Proof.LibVariance
import Idealize.ShloMosaic.Lib.ValueIdx

noncomputable section

open scoped BigOperators

namespace Cert.SpecLaw

open Idealize.ShloMosaic Idealize.ShloMosaic.ValueIdx Cert.Spec

/-- For a real-valued column `j` of an array with `R > 0` rows, and `n = R`, the variance through the moments
    equals the variance as the mean squared deviation. -/
theorem varMoments_eq_varCentered {R C : ℕ} (hR : 0 < R) (n : EReal) (hn : n = ((R : ℝ) : EReal))
    (x : Mat R C) (j : Fin C) (hx : ∀ i : Fin R, ∃ r : ℝ, x (ix2 i j) = (r : EReal)) :
    varMoments n x j = varCentered n x j := by
  subst hn
  unfold varMoments varCentered mean colSum colSumSq
  exact LibVariance.var_moments_eq_centered hR (fun i => x (ix2 i j)) hx

/-- The linear layer of real-valued arrays is real-valued: every entry is a finite sum of products of real
    numbers, plus a real number. -/
theorem linear_real {M K N : ℕ} (x : Mat M K) (W : Mat N K) (b : Vec1 N)
    (hx : ∀ k, ∃ r : ℝ, x k = (r : EReal)) (hW : ∀ k, ∃ r : ℝ, W k = (r : EReal))
    (hb : ∀ k, ∃ r : ℝ, b k = (r : EReal)) :
    ∀ k, ∃ r : ℝ, linear x W b k = (r : EReal) := by
  intro k
  unfold linear
  exact LibVariance.real_add
    (LibVariance.real_sum_univ _ (fun q => LibVariance.real_mul (hx _) (hW _))) (hb _)

/-- The normalise / rectify / residual step only reads the values of the variance vector: two variance
    vectors equal entry by entry give equal results. -/
theorem normRelu_congr_var {R C : ℕ} (eps : EReal) (x res : Mat R C) (mu var var' g b : Fin C → EReal)
    (h : ∀ j, var j = var' j) :
    normRelu eps x res mu var g b = normRelu eps x res mu var' g b := by
  have hv : var = var' := funext h
  rw [hv]

end Cert.SpecLaw

end
-- ==== Proof.LibHostReal.lean ====
/-
  Real-valuedness through the host's indexing operations, at the extended-real reading of floats.

  An extended real is "a real number" when it is the image of some `r : ℝ` (neither infinity). Three facts:
  a gather only re-indexes its operand, so any property of every operand entry holds of every gathered
  entry; an accumulating scatter of real-valued updates into a real-valued operand is real-valued, since each
  entry is the operand's entry plus a FINITE sum of update entries, and the reals are closed under finite sums;
  and a real number divided by an extended real that is at least one is a real number (the divisor is not
  zero, and the inverse of `+∞` is zero). A broadcast, like a gather, only re-indexes.
-/
import Idealize.ShloMosaic.PureOps.Ideal
import Idealize.ShloMosaic.PureOps.Contract
import Idealize.ShloMosaic.PureOps.ShapeOps

noncomputable section

namespace LibHostReal

open Idealize.ShloMosaic

/-- The sum of two real numbers, read as extended reals, is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A finite sum of real numbers, read as extended reals, is a real number. -/
theorem sum_real {ι : Type} (S : Finset ι) (f : ι → EReal) (hf : ∀ j ∈ S, ∃ r : ℝ, f j = (r : EReal)) :
    ∃ r : ℝ, ∑ j ∈ S, f j = (r : EReal) :=
  Finset.sum_induction f (fun x => ∃ r : ℝ, x = (r : EReal)) (fun _ _ hx hy => add_real hx hy)
    ⟨0, EReal.coe_zero.symm⟩ hf

/-- A gather reads its operand at a computed index: a property of every operand entry is a property of
    every gathered entry. -/
theorem gather_pred {α : Type} {s si t : Shape} {w : Nat} (d : GatherDims s si t) (P : α → Prop)
    (x : s.Idx → α) (idx : IVec si w) (hx : ∀ i, P (x i)) : ∀ k, P (Host.gather d x idx k) :=
  fun k => hx (d.operandIdx k idx)

/-- A gather of a real-valued array is real-valued. -/
theorem gather_real {s si t : Shape} {w : Nat} (d : GatherDims s si t) (x : s.Idx → EReal) (idx : IVec si w)
    (hx : ∀ i, ∃ r : ℝ, x i = (r : EReal)) : ∀ k, ∃ r : ℝ, Host.gather d x idx k = (r : EReal) :=
  gather_pred d (fun v => ∃ r : ℝ, v = (r : EReal)) x idx hx

/-- A broadcast reads its operand at a computed index: a property of every operand entry is a property of
    every entry of the broadcast. -/
theorem broadcastInDim_pred {α : Type} {s t : Shape} (dims : Fin s.rank → Fin t.rank)
    (h : s.BroadcastsInDim t dims) (P : α → Prop) (x : s.Idx → α) (hx : ∀ i, P (x i)) :
    ∀ k, P (broadcastInDim t dims h x k) :=
  fun _ => hx _

/-- An accumulating scatter is, entry by entry, the operand's entry plus the sum of the updates landing there;
    with a real-valued operand and real-valued updates every entry is a real number. -/
theorem hostScatterAdd_real {s si su : Shape} {w : Nat} (d : ScatterDims s si su) (x0 : s.Idx → EReal)
    (idx : IVec si w) (upd : su.Idx → EReal) (hx : ∀ i, ∃ r : ℝ, x0 i = (r : EReal))
    (hu : ∀ j, ∃ r : ℝ, upd j = (r : EReal)) : ∀ k, ∃ r : ℝ, Ideal.hostScatterAdd d x0 idx upd k = (r : EReal) :=
  fun k => add_real (hx k) (sum_real _ _ fun j _ => hu j)

/-- The host's accumulating float scatter of real-valued updates into a real-valued operand is real-valued. -/
theorem scatterAdd_real {φ : FTy} {s si su : Shape} {w : Nat} (d : ScatterDims s si su) (x0 : FVec Ideal s φ)
    (idx : IVec si w) (upd : FVec Ideal su φ) (hx : ∀ i, ∃ r : ℝ, x0 i = (r : EReal))
    (hu : ∀ j, ∃ r : ℝ, upd j = (r : EReal)) :
    ∀ k, ∃ r : ℝ, Host.scatterAdd (F := Ideal) d x0 idx upd k = (r : EReal) :=
  hostScatterAdd_real d x0 idx upd hx hu

/-- A real number divided by an extended real that is at least one is a real number: the divisor is not zero;
    if it is `+∞` its inverse is zero, otherwise it is a nonzero real and the quotient is the real quotient. -/
theorem div_real_of_one_le (a : ℝ) {y : EReal} (hy : 1 ≤ y) : ∃ r : ℝ, Ideal.div (a : EReal) y = (r : EReal) := by
  have hy0 : y ≠ 0 := fun h => by rw [h] at hy; exact absurd hy (by norm_num)
  rw [Ideal.div, if_neg hy0]
  induction y using EReal.rec with
  | bot => exact absurd (lt_of_lt_of_le (EReal.bot_lt_coe 1) (by exact_mod_cast hy)) (lt_irrefl _)
  | top => exact ⟨0, by rw [EReal.inv_top, mul_zero, EReal.coe_zero]⟩
  | coe b => exact ⟨a * b⁻¹, by rw [EReal.coe_mul, EReal.coe_inv]⟩

/-- The larger of an extended real and one is at least one. -/
theorem one_le_max_one (x : EReal) : 1 ≤ max x 1 := le_max_right x 1

end LibHostReal

end
-- ==== Proof.PrologueReal.lean ====
/-
  Every entry of the shared aggregation term is a real number when every entry of the feature array is.

  The term is a quotient. Its numerator accumulates gathered feature rows into an array of zeros: a gather only
  re-indexes a real-valued array, zero is a real number, and an accumulating scatter adds finitely many real
  numbers to each entry, so the numerator is real-valued. Its divisor is, at every index, the larger of some
  extended real (an in-degree, whose value is never needed) and one, hence at least one; a real number divided
  by an extended real that is at least one is a real number.
-/
import proofs.«108555_j3255585210595_1_alg».proof.Proof.Prologue
import proofs.«108555_j3255585210595_1_alg».proof.Proof.Consts
import proofs.«108555_j3255585210595_1_alg».proof.Proof.LibHostReal

noncomputable section

namespace Cert.PrologueReal

open Cert.ReferenceIdeal Cert.ReferenceIdeal.Gen Idealize.ShloMosaic

/-- An entrywise host quotient is a real number at an index where the numerator is a real number and the
    divisor is at least one. -/
theorem hostDivf_real {s : Shape} (x y : FVec Ideal s .f32) (k : s.Idx) (hx : ∃ r : ℝ, x k = (r : EReal))
    (hy : 1 ≤ y k) : ∃ r : ℝ, Host.divf x y k = (r : EReal) := by
  obtain ⟨a, ha⟩ := hx
  show ∃ r : ℝ, Ideal.div (x k) (y k) = (r : EReal)
  rw [ha]
  exact LibHostReal.div_real_of_one_le a hy

/-- Every entry of the constant array of the zero word is the real number zero. -/
theorem constant_zero_real {s : Shape} :
    ∀ i, ∃ r : ℝ, constant (F := Ideal) s .f32 0x00000000#32 i = (r : EReal) :=
  fun _ => ⟨0, Cert.Consts.ofBits_zero⟩

/-- Every entry of the entrywise maximum of an array with the constant array of the word for one is at least one. -/
theorem one_le_maximumf_one {s t : Shape} (dims : Fin s.rank → Fin t.rank) (hb : s.BroadcastsInDim t dims)
    (x : FVec Ideal t .f32) :
    ∀ i, 1 ≤ maximumf x (broadcastInDim t dims hb (constant (F := Ideal) s .f32 0x3F800000#32)) i :=
  fun _ => le_max_of_le_right Cert.Consts.ofBits_one.ge

/-- Every entry of the aggregation term is a real number when every entry of the feature array is. -/
theorem aggregate_real (feature : FVec Ideal Cert.ReferenceIdeal.S100000x128 .f32)
    (src dst : IVec Cert.ReferenceIdeal.S1600000 32) (hf : ∀ k, ∃ r : ℝ, feature k = (r : EReal)) :
    ∀ k, ∃ r : ℝ, Cert.Prologue.aggregate (F := Ideal) feature src dst k = (r : EReal) := by
  intro k
  unfold Cert.Prologue.aggregate
  refine hostDivf_real _ _ k ?_ ?_
  · -- the numerator: gathered real rows accumulated into zeros
    refine LibHostReal.scatterAdd_real _ _ _ _ ?_ ?_ k
    · exact LibHostReal.broadcastInDim_pred _ _ (fun v : EReal => ∃ r : ℝ, v = (r : EReal)) _ constant_zero_real
    · exact LibHostReal.gather_real _ _ _ hf
  · -- the divisor: a maximum with one, read through two broadcasts
    refine LibHostReal.broadcastInDim_pred _ _ (fun v : EReal => 1 ≤ v) _ ?_ k
    refine LibHostReal.broadcastInDim_pred _ _ (fun v : EReal => 1 ≤ v) _ ?_
    exact one_le_maximumf_one _ _ _

end Cert.PrologueReal

end
-- ==== Proof.Bridge.lean ====
/-
  The two places where the programs disagree in spelling, closed by the variance law.

  Both programs normalise two arrays column by column: the node array, which is the linear layer applied to
  the aggregated features (100000 rows), and the edge array (1600000 rows). One program takes the variance
  of a column through its first two moments, the other as the mean squared deviation. For a real-valued
  array with `R > 0` rows and the divisor `n = R` the two variances agree column by column, and the
  normalise / rectify / residual step reads the variance vector only through its values; so the two
  spellings of the step agree.

  The node array is real-valued because the aggregated features are (a real numerator over a divisor that
  is at least one) and a linear layer of real arrays is real; the edge array is real-valued by hypothesis.
  The two divisors are the float words for 100000 and 1600000, which denote exactly these row counts.
-/
import proofs.«108555_j3255585210595_1_alg».proof.Proof.SpecLaw
import proofs.«108555_j3255585210595_1_alg».proof.Proof.Consts
import proofs.«108555_j3255585210595_1_alg».proof.Proof.Spec
import proofs.«108555_j3255585210595_1_alg».proof.Proof.Prologue
import proofs.«108555_j3255585210595_1_alg».proof.Proof.PrologueReal
import Idealize.ShloMosaic.Lib.ValueIdx

noncomputable section

open scoped BigOperators

namespace Cert.Bridge

open Idealize.ShloMosaic Idealize.ShloMosaic.ValueIdx Cert.Spec

/-- The float word for 100000 denotes the natural number 100000, read as a real number. -/
theorem n1_eq : Ideal.ofBits .f32 0x47C35000#32 = (((100000 : ℕ) : ℝ) : EReal) := by
  rw [Cert.Consts.ofBits_100000, Nat.cast_ofNat]

/-- The float word for 1600000 denotes the natural number 1600000, read as a real number. -/
theorem n2_eq : Ideal.ofBits .f32 0x49C35000#32 = (((1600000 : ℕ) : ℝ) : EReal) := by
  rw [Cert.Consts.ofBits_1600000, Nat.cast_ofNat]

/-- For a real-valued array with `R > 0` rows and divisor `n = R`, the normalise / rectify / residual step
    gives the same result with the variance through the moments as with the mean squared deviation. -/
theorem norm_eq {R C : ℕ} (hR : 0 < R) (n : EReal) (hn : n = ((R : ℝ) : EReal)) (eps : EReal)
    (x res : Mat R C) (g s : Fin C → EReal) (hx : ∀ k, ∃ r : ℝ, x k = (r : EReal)) :
    normRelu eps x res (mean n x) (varMoments n x) g s
      = normRelu eps x res (mean n x) (varCentered n x) g s :=
  Cert.SpecLaw.normRelu_congr_var eps x res (mean n x) (varMoments n x) (varCentered n x) g s
    (fun j => Cert.SpecLaw.varMoments_eq_varCentered hR n hn x j (fun i => hx (ix2 i j)))

/-- The node array: the linear layer applied to the aggregated features, normalised over its 100000 rows.
    With real-valued features, weights and bias the two spellings of the variance give the same result. -/
theorem node_eq (eps : EReal) (feature : FVec Ideal Cert.ReferenceIdeal.S100000x128 .f32)
    (src dst : IVec Cert.ReferenceIdeal.S1600000 32) (W : Mat 128 128) (b : Vec1 128)
    (g s : Fin 128 → EReal)
    (hf : ∀ k, ∃ r : ℝ, feature k = (r : EReal)) (hW : ∀ k, ∃ r : ℝ, W k = (r : EReal))
    (hb : ∀ k, ∃ r : ℝ, b k = (r : EReal)) :
    normRelu eps (linear (Cert.Prologue.aggregate (F := Ideal) feature src dst) W b) feature
        (mean (Ideal.ofBits .f32 0x47C35000#32)
          (linear (Cert.Prologue.aggregate (F := Ideal) feature src dst) W b))
        (varMoments (Ideal.ofBits .f32 0x47C35000#32)
          (linear (Cert.Prologue.aggregate (F := Ideal) feature src dst) W b)) g s
      = normRelu eps (linear (Cert.Prologue.aggregate (F := Ideal) feature src dst) W b) feature
        (mean (Ideal.ofBits .f32 0x47C35000#32)
          (linear (Cert.Prologue.aggregate (F := Ideal) feature src dst) W b))
        (varCentered (Ideal.ofBits .f32 0x47C35000#32)
          (linear (Cert.Prologue.aggregate (F := Ideal) feature src dst) W b)) g s :=
  norm_eq (R := 100000) (by norm_num) _ n1_eq eps _ feature g s
    (Cert.SpecLaw.linear_real _ W b (Cert.PrologueReal.aggregate_real feature src dst hf) hW hb)

/-- The edge array, normalised over its 1600000 rows: with real-valued entries the two spellings of the
    variance give the same result. -/
theorem edge_eq (eps : EReal) (e : Mat 1600000 128) (g s : Fin 128 → EReal)
    (he : ∀ k, ∃ r : ℝ, e k = (r : EReal)) :
    normRelu eps e e (mean (Ideal.ofBits .f32 0x49C35000#32) e)
        (varMoments (Ideal.ofBits .f32 0x49C35000#32) e) g s
      = normRelu eps e e (mean (Ideal.ofBits .f32 0x49C35000#32) e)
        (varCentered (Ideal.ofBits .f32 0x49C35000#32) e) g s :=
  norm_eq (R := 1600000) (by norm_num) _ n2_eq eps e e g s he

end Cert.Bridge

end
-- ==== Proof.FiniteInputs.lean ====
/-
  From "every float input is finite" to "every entry of these input arrays is a real number".

  The precondition compares the absolute value of every entry of an input array with `+∞` (the word
  `0x7F800000`), takes the conjunction over all entries, and takes the conjunction over the ten arrays. Read at
  the extended reals, `|x| < +∞` holds exactly when `x` is neither infinity, that is when `x` is a real number.
  One lemma, generic in the array's shape, reads a single array's conjunct back; it is then used at the four
  arrays the proof needs (the node features, the edge features, the weight matrix and the bias).
-/
import proofs.«108555_j3255585210595_1_alg».proof.Defs
import proofs.«108555_j3255585210595_1_alg».proof.Proof.Gen.Pre_finite_inputs
import Idealize.ShloMosaic.Lib.ReduceAll
import Idealize.ShloMosaic.Lib.ValueIdx

noncomputable section

namespace Cert.FiniteInputs

open Idealize.ShloMosaic Idealize.SL.Sem

/-- The word `0x7F800000` denotes `+∞`. -/
theorem ofBits_inf : Ideal.ofBits .f32 0x7F800000#32 = ⊤ := by
  simp [Ideal.ofBits, Ideal.ieee]

/-- An extended real whose absolute value (the larger of it and its negation) is below `+∞` is a real number:
    at either infinity the absolute value is `+∞`. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The scalar shape has one index. -/
instance : Subsingleton Cert.Pre_finite_inputs.S_.Idx := ⟨fun a b => funext fun d => d.elim0⟩

/-- One array's conjunct of the precondition, read back: if "the absolute value is below the broadcast `+∞`
    word", reduced by conjunction over all axes to a single truth value, is true, then every entry of the array
    is a real number. Generic in the array's shape and in the reduction's axis list. -/
theorem all_real_of_reduce {s u : Shape} {axes : List (Fin s.rank)}
    (x : FVec Ideal s .f32) (hb : Cert.Pre_finite_inputs.S_.BroadcastsInDim s (![] : Fin 0 → Fin s.rank))
    (init : u.Idx → BitVec 1) (h : s.ReducesTo axes Cert.Pre_finite_inputs.S_) (hu : 0 < u.numel)
    (j : Cert.Pre_finite_inputs.S_.Idx)
    (e : Host.reduce IntOp.andi
        (cmpf .olt (Host.absf x)
          (broadcastInDim s ![] hb (constant (F := Ideal) Cert.Pre_finite_inputs.S_ .f32 0x7F800000#32)))
        init h hu j = 1#1) :
    ∀ i, ∃ r : ℝ, x i = (r : EReal) := by
  intro i
  have hi := Host.reduce_andi_all _ init h hu j e i
  refine real_of_abs_lt_top (x i) ?_
  have hinf : (broadcastInDim s ![] hb (constant (F := Ideal) Cert.Pre_finite_inputs.S_ .f32 0x7F800000#32)) i = ⊤ :=
    ofBits_inf
  have hi' : Ideal.cmp .olt (max (x i) (-(x i)))
      ((broadcastInDim s ![] hb (constant (F := Ideal) Cert.Pre_finite_inputs.S_ .f32 0x7F800000#32)) i) = 1#1 := hi
  rw [hinf] at hi'
  exact hi'

/-- The precondition at one device says a conjunction of eight truth values is true; these are the four conjuncts
    read here: the reductions over the node features, the edge features, the weight matrix and the bias. -/
theorem conjuncts (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ k, ∃ r : ℝ, m ((c.tc : Thread Cert.KernelIdeal.nD Cert.KernelIdeal.τ).loc Cert.KernelIdeal.main_arg0) k = (r : EReal))
    ∧ (∀ k, ∃ r : ℝ, m ((c.tc : Thread Cert.KernelIdeal.nD Cert.KernelIdeal.τ).loc Cert.KernelIdeal.main_arg1) k = (r : EReal))
    ∧ (∀ k, ∃ r : ℝ, m ((c.tc : Thread Cert.KernelIdeal.nD Cert.KernelIdeal.τ).loc Cert.KernelIdeal.main_arg4) k = (r : EReal))
    ∧ (∀ k, ∃ r : ℝ, m ((c.tc : Thread Cert.KernelIdeal.nD Cert.KernelIdeal.τ).loc Cert.KernelIdeal.main_arg5) k = (r : EReal)) := by
  have h0 := congrFun (h c) ValueIdx.ix0
  dsimp only [Cert.Pre_finite_inputs.fn, Cert.Pre_finite_inputs.fn_part1, Cert.Pre_finite_inputs.fn_part2] at h0
  -- the outer four conjuncts are the last four arrays'; the fifth from the outside is the bias's
  have h33 := (IntOp.andi_eq_one.1 h0).1
  have h28 := (IntOp.andi_eq_one.1 h33).1
  have h23 := (IntOp.andi_eq_one.1 h28).1
  have h18 := (IntOp.andi_eq_one.1 h23).1
  obtain ⟨h13, h17⟩ := IntOp.andi_eq_one.1 h18
  obtain ⟨h8, h12⟩ := IntOp.andi_eq_one.1 h13
  obtain ⟨h3, h7⟩ := IntOp.andi_eq_one.1 h8
  exact ⟨all_real_of_reduce _ _ _ _ _ _ h3, all_real_of_reduce _ _ _ _ _ _ h7,
    all_real_of_reduce _ _ _ _ _ _ h12, all_real_of_reduce _ _ _ _ _ _ h17⟩

variable (m : (ℓ : Loc Cert.KernelIdeal.nD Cert.KernelIdeal.τ Cert.KernelIdeal.sig) → Buf (Elt Ideal) ℓ)
  (h : Cert.Pre_KernelIdeal (hPre_finite_inputs := Cert.Pre_finite_inputs.Gen.facts) m) (c : Dev Cert.KernelIdeal.nD)

include h in
/-- Every entry of the node-feature array is a real number. -/
theorem arg0_real : ∀ k, ∃ r : ℝ,
    m ((c.tc : Thread Cert.KernelIdeal.nD Cert.KernelIdeal.τ).loc Cert.KernelIdeal.main_arg0) k = (r : EReal) :=
  (conjuncts m h c).1

include h in
/-- Every entry of the edge-feature array is a real number. -/
theorem arg1_real : ∀ k, ∃ r : ℝ,
    m ((c.tc : Thread Cert.KernelIdeal.nD Cert.KernelIdeal.τ).loc Cert.KernelIdeal.main_arg1) k = (r : EReal) :=
  (conjuncts m h c).2.1

include h in
/-- Every entry of the weight matrix is a real number. -/
theorem arg4_real : ∀ k, ∃ r : ℝ,
    m ((c.tc : Thread Cert.KernelIdeal.nD Cert.KernelIdeal.τ).loc Cert.KernelIdeal.main_arg4) k = (r : EReal) :=
  (conjuncts m h c).2.2.1

include h in
/-- Every entry of the bias vector is a real number. -/
theorem arg5_real : ∀ k, ∃ r : ℝ,
    m ((c.tc : Thread Cert.KernelIdeal.nD Cert.KernelIdeal.τ).loc Cert.KernelIdeal.main_arg5) k = (r : EReal) :=
  (conjuncts m h c).2.2.2

end Cert.FiniteInputs

end
-- ==== Proof.lean ====
/-
  A graph layer with mean aggregation, a linear map, batch normalisation, rectifier and residual, on the
  node features and (without the linear map) on the edge features: the idealized kernel program and the
  idealized reference compute the same two arrays.

  Both programs start with the same host operations: each node's row is the sum of its in-neighbours' feature
  rows divided by its clamped in-degree (`Prologue.aggregate`). Both apply `x · Wᵀ + b` — the kernel as a
  matrix-unit product of row blocks, the reference as one product with the transposed weights —, which over
  the extended reals is one sum of products. They differ in the batch normalisation's variance: the kernel's
  regions accumulate each column's sum and sum of squares block by block over the grid and host operations
  form `(∑ x²) / n − ((∑ x) / n)²`; the reference forms `(∑ (x − μ)²) / n`. For a real-valued column of `n`
  entries these are one number (`SpecLaw.varMoments_eq_varCentered`), and the precondition — every float input
  finite — makes the normalised arrays real-valued: the edge array is an input, and the linear layer's output is
  a finite combination of finite inputs (the aggregation divides real sums by a number that is at least one).
  Everything else — the stabiliser, the inverse square root, scale, shift, rectifier, residual — is the same
  operation on the same words on both sides.

  The frames of the two kernel programs are the generated ones; the reference's frame is its generated run with
  the results dropped; the idealization rewrote nothing, so `preserves` is `True`.
-/
import proofs.«108555_j3255585210595_1_alg».proof.Defs
import proofs.«108555_j3255585210595_1_alg».proof.Proof.Gen.Kernel
import proofs.«108555_j3255585210595_1_alg».proof.Proof.Gen.Kernel.Skeleton
import proofs.«108555_j3255585210595_1_alg».proof.Proof.Gen.Kernel.Launch
import proofs.«108555_j3255585210595_1_alg».proof.Proof.Gen.Kernel.Points
import proofs.«108555_j3255585210595_1_alg».proof.Proof.Gen.Kernel.Frame
import proofs.«108555_j3255585210595_1_alg».proof.Proof.Gen.KernelIdeal
import proofs.«108555_j3255585210595_1_alg».proof.Proof.Gen.KernelIdeal.Skeleton
import proofs.«108555_j3255585210595_1_alg».proof.Proof.Gen.KernelIdeal.Launch
import proofs.«108555_j3255585210595_1_alg».proof.Proof.Gen.KernelIdeal.Points
import proofs.«108555_j3255585210595_1_alg».proof.Proof.Gen.KernelIdeal.Frame
import proofs.«108555_j3255585210595_1_alg».proof.Proof.Gen.ReferenceIdeal
import proofs.«108555_j3255585210595_1_alg».proof.Proof.Gen.ReferenceIdeal.Run
import proofs.«108555_j3255585210595_1_alg».proof.Proof.Gen.ReferenceIdeal.Read
import proofs.«108555_j3255585210595_1_alg».proof.Proof.Gen.Pre_finite_inputs
import proofs.«108555_j3255585210595_1_alg».proof.Proof.KernelRun
import proofs.«108555_j3255585210595_1_alg».proof.Proof.KernelValue
import proofs.«108555_j3255585210595_1_alg».proof.Proof.RefStages
import proofs.«108555_j3255585210595_1_alg».proof.Proof.Bridge
import proofs.«108555_j3255585210595_1_alg».proof.Proof.FiniteInputs
import Idealize.ShloMosaic.Adequacy
import Idealize.ShloMosaic.Init

noncomputable section

namespace Cert.Proof

open Idealize.ShloMosaic Idealize.ShloMosaic.ValueIdx Idealize.SL.Sem

/-- The kernel program as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, finite by the precondition, both programs end with the node
    array and the edge array normalised, rectified and added to their residuals: the kernel's with the variance
    from the moments, the reference's with the mean squared deviation, one number on real-valued columns. -/
theorem algebraic : Cert.algebraic_KernelIdeal_ReferenceIdeal := by
  intro m ρ m' ρ' hpre hagree
  refine ⟨fun c => Cert.KernelIdeal.Gen.W7 m ρ c (Proc.devRef .tc Cert.KernelIdeal.main_v29),
    fun c => Cert.KernelIdeal.Gen.W7 m ρ c (Proc.devRef .tc Cert.KernelIdeal.main_v39),
    Cert.KernelIdeal.RunValue.run (F := Ideal) m ρ, ?_⟩
  refine (θ_run Cert.ReferenceIdeal.defs _ _).mono (fun r h c => ?_) (Cert.ReferenceIdeal.Value.run (F := Ideal) m' ρ')
  obtain ⟨h0, h1, hrest⟩ := h c
  obtain ⟨a0, a1, a2, a3, a4, a5, a6, a7, a8, a9⟩ := hagree c
  refine ⟨h0.trans (Eq.trans ?_ (Cert.KernelValue.node_value m ρ c).symm), h1.trans (Eq.trans ?_ (Cert.KernelValue.edge_value m ρ c).symm), hrest⟩
  · rw [Cert.ReferenceIdeal.Read.val_main_v76_eq, a0, a2, a3, a4, a5, a6, a7]
    funext k
    obtain ⟨i, j, rfl⟩ : ∃ (i : Fin 100000) (j : Fin 128), k = ix2 i j := ⟨k 0, k 1, eq_ix2 k⟩
    refine (Cert.RefStages.ref_out0 _ _ _ _ _ _ _ i j).trans ?_
    exact (congrFun (Cert.Bridge.node_eq _ _ _ _ _ _ _ _
      (Cert.FiniteInputs.arg0_real m hpre c) (Cert.FiniteInputs.arg4_real m hpre c) (Cert.FiniteInputs.arg5_real m hpre c)) (ix2 i j)).symm
  · refine (Cert.ReferenceIdeal.Read.val_main_v77_eq _ _ _).trans ?_
    rw [a1, a8, a9]
    funext k
    obtain ⟨i, j, rfl⟩ : ∃ (i : Fin 1600000) (j : Fin 128), k = ix2 i j := ⟨k 0, k 1, eq_ix2 k⟩
    refine (Cert.RefStages.ref_out1 _ _ _ i j).trans ?_
    exact (congrFun (Cert.Bridge.edge_eq _ _ _ _ (Cert.FiniteInputs.arg1_real m hpre c)) (ix2 i j)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
